-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S1x32 : S_.BroadcastsInDim S1x32 (![] : Fin 0 → Fin S1x32.rank)
  reducesTo_S1x32_S_d0_1 : S1x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S32x32 .f32) (main_arg10 : FVec F S32 .f32) (main_arg11 : FVec F S32 .f32) (main_arg12 : FVec F S32 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S64 .f32) (main_arg7 : FVec F S64 .f32) (main_arg8 : FVec F S64 .f32) (main_arg9 : FVec F S32x32 .f32) (main_arg10 : FVec F S32 .f32) (main_arg11 : FVec F S32 .f32) (main_arg12 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : IVec S800000 32) (main_arg1 : IVec S800000 32) (main_arg2 : FVec F S50000x64 .f32) (main_arg3 : FVec F S50000x32 .f32) (main_arg4 : FVec F S1x32 .f32) (main_arg5 : FVec F S128x64 .f32) (main_arg6 : FVec F S64 .f32) (main_arg7 : FVec F S64 .f32) (main_arg8 : FVec F S64 .f32) (main_arg9 : FVec F S32x32 .f32) (main_arg10 : FVec F S32 .f32) (main_arg11 : FVec F S32 .f32) (main_arg12 : FVec F S32 .f32) : IVec S_ 1 :=
  let main_v0 : FVec F S50000x64 .f32 := Host.absf main_arg2
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S1x32 .f32 := Host.absf main_arg4
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S_ : Shape := ⟨0, ![]⟩
abbrev S800000x1 : Shape := ⟨2, ![800000, 1]⟩
abbrev S800000x64 : Shape := ⟨2, ![800000, 64]⟩
abbrev S800000x32 : Shape := ⟨2, ![800000, 32]⟩
abbrev S64x64 : Shape := ⟨2, ![64, 64]⟩
abbrev S32x64 : Shape := ⟨2, ![32, 64]⟩
abbrev S1x64 : Shape := ⟨2, ![1, 64]⟩
abbrev S2000x64 : Shape := ⟨2, ![2000, 64]⟩
abbrev S2000x32 : Shape := ⟨2, ![2000, 32]⟩
abbrev S2000 : Shape := ⟨1, ![2000]⟩
abbrev S2000x1 : Shape := ⟨2, ![2000, 1]⟩

abbrev nBuf : Space → Nat
  | .hbm => 53
  | .vmem => 17
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x32, .f32⟩
  | .hbm, ⟨4, _⟩ => ⟨S1x32, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x32, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S50000x32, .f32⟩
  | .hbm, ⟨37, _⟩ => ⟨S800000x1, .i32⟩
  | .hbm, ⟨38, _⟩ => ⟨S50000x32, .f32⟩
  | .hbm, ⟨39, _⟩ => ⟨S64x64, .f32⟩
  | .hbm, ⟨40, _⟩ => ⟨S32x64, .f32⟩
  | .hbm, ⟨41, _⟩ => ⟨S32x64, .f32⟩
  | .hbm, ⟨42, _⟩ => ⟨S1x64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x32, .f32⟩
  | .hbm, ⟨49, _⟩ => ⟨S1x32, .f32⟩
  | .hbm, ⟨50, _⟩ => ⟨S1x32, .f32⟩
  | .hbm, ⟨51, _⟩ => ⟨S50000x64, .f32⟩
  | .hbm, ⟨52, _⟩ => ⟨S50000x32, .f32⟩
  | .local _ .vmem, ⟨0, _⟩ => ⟨S2000x64, .f32⟩
  | .local _ .vmem, ⟨1, _⟩ => ⟨S2000x64, .f32⟩
  | .local _ .vmem, ⟨2, _⟩ => ⟨S2000x32, .f32⟩
  | .local _ .vmem, ⟨3, _⟩ => ⟨S2000x32, .f32⟩
  | .local _ .vmem, ⟨4, _⟩ => ⟨S64x64, .f32⟩
  | .local _ .vmem, ⟨5, _⟩ => ⟨S32x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S32x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S2000x64, .f32⟩
  | .local _ .vmem, ⟨14, _⟩ => ⟨S2000x64, .f32⟩
  | .local _ .vmem, ⟨15, _⟩ => ⟨S2000x32, .f32⟩
  | .local _ .vmem, ⟨16, _⟩ => ⟨S2000x32, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000x32 : S_.BroadcastsInDim S50000x32 (![] : Fin 0 → Fin S50000x32.rank)
  slices_S128x64_S64x64_0_0 : S128x64.Slices ![0, 0] S64x64
  slices_S128x64_S32x64_64_0 : S128x64.Slices ![64, 0] S32x64
  slices_S128x64_S32x64_96_0 : S128x64.Slices ![96, 0] S32x64
  shapeCasts_S1x64_S64 : S1x64.ShapeCasts S64
  shapeCasts_S64_S1x64 : S64.ShapeCasts S1x64
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  broadcasts_S2000x1_S2000x32 : S2000x1.Broadcasts S2000x32
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  scatter_S50000x64_S800000x1_S800000x64_1_0_0_1_wf : ScatterDims.WF S50000x64 S800000x1 S800000x64 [1] [0] [0] 1
  scatter_S50000x32_S800000x1_S800000x32_1_0_0_1_wf : ScatterDims.WF S50000x32 S800000x1 S800000x32 [1] [0] [0] 1
  dot_S1x32_S32x64_S1x64_1_0_0_1_n_n_wf : DotDims.WF S1x32 S32x64 S1x64 [1] [0] [0] [1] [] []
  dot_S2000x64_S64x64_S2000x64_1_0_0_1_n_n_wf : DotDims.WF S2000x64 S64x64 S2000x64 [1] [0] [0] [1] [] []
  dot_S2000x32_S32x64_S2000x64_1_0_0_1_n_n_wf : DotDims.WF S2000x32 S32x64 S2000x64 [1] [0] [0] [1] [] []
  dot_S2000x32_S32x32_S2000x32_1_0_0_1_n_n_wf : DotDims.WF S2000x32 S32x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S50000x32.size a
  hwx0_1 : ∀ i : grid0.Coords, EltTy.bits .f32 = 32 ∨ (Rect.block (s := S50000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S50000x64.size a
  hwx0_11 : ∀ i : grid0.Coords, EltTy.bits .f32 = 32 ∨ (Rect.block (s := S50000x64) S2000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x32.size a ≤ S50000x32.size a
  hwx0_12 : ∀ i : grid0.Coords, EltTy.bits .f32 = 32 ∨ (Rect.block (s := S50000x32) S2000x32.size (cc0_transform_12 i) (hinb0_12 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf

abbrev win0_0 : Pipeline.Window sig grid0 :=
  Pipeline.Window.ofSpec (Memref.whole main_v16) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32_0) S2000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v32_1) S2000x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S800000 : Shape := ⟨1, ![800000]⟩
abbrev S50000x64 : Shape := ⟨2, ![50000, 64]⟩
abbrev S50000x32 : Shape := ⟨2, ![50000, 32]⟩
abbrev S1x32 : Shape := ⟨2, ![1, 32]⟩
abbrev S128x64 : Shape := ⟨2, ![128, 64]⟩
abbrev S64 : Shape := ⟨1, ![64]⟩
abbrev S32x32 : Shape := ⟨2, ![32, 32]⟩
abbrev S32 : Shape := ⟨1, ![32]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩
abbrev S50000x128 : Shape := ⟨2, ![50000, 128]⟩
abbrev S1x64 : Shape := ⟨2, ![1, 64]⟩
abbrev S50000 : Shape := ⟨1, ![50000]⟩
abbrev S50000x1 : Shape := ⟨2, ![50000, 1]⟩

abbrev nBuf : Space → Nat
  | .hbm => 102
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x64, .f32⟩
  | .hbm, ⟨3, _⟩ => ⟨S50000x32, .f32⟩
  | .hbm, ⟨4, _⟩ => ⟨S1x32, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S50000x96, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x32, .f32⟩
  | .hbm, ⟨28, _⟩ => ⟨S50000x32, .f32⟩
  | .hbm, ⟨29, _⟩ => ⟨S50000x128, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000, .f32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x32, .f32⟩
  | .hbm, ⟨67, _⟩ => ⟨S1x32, .f32⟩
  | .hbm, ⟨68, _⟩ => ⟨S50000x32, .f32⟩
  | .hbm, ⟨69, _⟩ => ⟨S50000x32, .f32⟩
  | .hbm, ⟨70, _⟩ => ⟨S_, .f32⟩
  | .hbm, ⟨71, _⟩ => ⟨S50000x32, .f32⟩
  | .hbm, ⟨72, _⟩ => ⟨S50000x32, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x32, .f32⟩
  | .hbm, ⟨80, _⟩ => ⟨S50000x32, .f32⟩
  | .hbm, ⟨81, _⟩ => ⟨S50000x32, .f32⟩
  | .hbm, ⟨82, _⟩ => ⟨S_, .f32⟩
  | .hbm, ⟨83, _⟩ => ⟨S50000, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x32, .f32⟩
  | .hbm, ⟨89, _⟩ => ⟨S50000x32, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x1, .f32⟩
  | .hbm, ⟨94, _⟩ => ⟨S50000x32, .f32⟩
  | .hbm, ⟨95, _⟩ => ⟨S50000x32, .f32⟩
  | .hbm, ⟨96, _⟩ => ⟨S1x32, .f32⟩
  | .hbm, ⟨97, _⟩ => ⟨S50000x32, .f32⟩
  | .hbm, ⟨98, _⟩ => ⟨S50000x32, .f32⟩
  | .hbm, ⟨99, _⟩ => ⟨S1x32, .f32⟩
  | .hbm, ⟨100, _⟩ => ⟨S50000x32, .f32⟩
  | .hbm, ⟨101, _⟩ => ⟨S50000x32, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  concatenates_S50000x64_S50000x32_S50000x96_d1 : Shape.Concatenates [S50000x64, S50000x32] S50000x96 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S50000x96_S50000x32_0_64 : S50000x96.Slices ![0, 64] S50000x32
  bcast_S1x32_S50000x32_0_1 : S1x32.BroadcastsInDim S50000x32 (![0, 1] : Fin 2 → Fin S50000x32.rank)
  concatenates_S50000x96_S50000x32_S50000x128_d1 : Shape.Concatenates [S50000x96, S50000x32] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S_S50000x32 : S_.BroadcastsInDim S50000x32 (![] : Fin 0 → Fin S50000x32.rank)
  reducesTo_S50000x32_S50000_d1 : S50000x32.ReducesTo [1] S50000
  bcast_S50000x1_S50000x32_0_1 : S50000x1.BroadcastsInDim S50000x32 (![0, 1] : Fin 2 → Fin S50000x32.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x128_S128x64_S50000x64_1_0_0_1_n_n_wf : DotDims.WF S50000x128 S128x64 S50000x64 [1] [0] [0] [1] [] []
  dot_S50000x32_S32x32_S50000x32_1_0_0_1_n_n_wf : DotDims.WF S50000x32 S32x32 S50000x32 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.LibPlainDot.lean ====
/-
  A plain matrix product, read at an index given by coordinates.

  For `l : [M, K]` and `r : [K, N]` contracted over `K` with no batch axis, the entry `(p, q)` of the product is
  `∑ k, l (p, k) * r (k, q)` on the extended reals — for the matrix unit's product into a zero accumulator and for
  the host's `dot_general` alike. General in the three extents.
-/
import Idealize.ShloMosaic.Lib.ValueIdx
import Idealize.ShloMosaic.PureOps.Ideal.Laws

namespace Cert.LibPlainDot

open Idealize.ShloMosaic Idealize.ShloMosaic.ValueIdx

/-- The contraction of a plain product at `(p, q)`, re-indexed by the contracted coordinate. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- The matrix unit's plain product into a zero accumulator, at `(p, q)`. -/
theorem matmul_plain_zero_apply {φ₁ φ₂ : FTy} {M K N : ℕ} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply _ prec l r (ix2 p q)).trans (plain_sum l r p q)

/-- The host's plain `dot_general`, at `(p, q)`. -/
theorem dotGeneral_plain_apply {φ₁ φ₂ : FTy} {M K N : ℕ} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) :=
  (Ideal.dotGeneral_apply _ prec .single l r (ix2 p q)).trans (plain_sum l r p q)

end Cert.LibPlainDot
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibRowNorm.lean ====
/-
  Layer normalisation of a rectified row, before its affine part, and the two spellings of it read at an index.

  For a row `z` of width `C`, with `a q = max (z q) 0`, mean `μ = (∑ q, a q) / n` and variance
  `σ² = (∑ q, (a q - μ)²) / n`, the normalised entry is `(a j - μ) * rsqrt (σ² + ε)`. A kernel spells this over an
  `[A, C]` block with lane sums, a column `[A, 1]` of row statistics and its spread back over the block; the host
  spells it with `reduce`, `broadcast_in_dim` and its own division and reciprocal square root. On the extended
  reals both read, at `(p, q)`, the same function of row `p`. General in the two extents; `n` and `ε` are the
  values of whatever 32-bit words the program holds.
-/
import Idealize.ShloMosaic.Lib.ValueIdx
import Idealize.ShloMosaic.Lib.Pipeline.Value
import Idealize.ShloMosaic.PureOps.Ideal.Laws
import proofs.«144930_j70746701299878_2_alg».proof.Proof.LibColumn

noncomputable section

namespace Cert.LibRowNorm

open Idealize.ShloMosaic Idealize.ShloMosaic.ValueIdx

/-- The rectified row's normalised entry `j`: `(a j - μ) * rsqrt (σ² + ε)` with `a = max z 0`. -/
def normRelu {C : ℕ} (n eps : EReal) (z : Fin C → EReal) (j : Fin C) : EReal :=
  (max (z j) 0 - Ideal.div (∑ q, max (z q) 0) n)
    * Ideal.rsqrt (Ideal.div (∑ q, (max (z q) 0 - Ideal.div (∑ q', max (z q') 0) n)
        * (max (z q) 0 - Ideal.div (∑ q', max (z q') 0) n)) n + eps)

/-- The source index over row `p` with lane `k`, for a sum along the lanes. -/
theorem lift_lane {A C : ℕ} (hr : (⟨2, ![A, C]⟩ : Shape).Reduces [1] ⟨1, ![A]⟩) (p : Fin A) (k : Fin C) :
    hr.lift (ix1 p) k = ix2 p k :=
  funext fun c => Fin.ext (by
    match c with
    | ⟨0, _⟩ => rfl
    | ⟨1, _⟩ => rfl)

/-! ## The kernel's spelling -/

section Kernel
variable {A C : ℕ} (nw ew : BitVec 32)
  (hr : (⟨2, ![A, C]⟩ : Shape).Reduces [1] ⟨1, ![A]⟩) (hc : (⟨1, ![A]⟩ : Shape).ShapeCasts ⟨2, ![A, 1]⟩)
  (hb : (⟨2, ![A, 1]⟩ : Shape).Broadcasts ⟨2, ![A, C]⟩)

/-- `max v 0`, entry by entry. -/
def kRelu (v : FVec Ideal ⟨2, ![A, C]⟩ .f32) : FVec Ideal ⟨2, ![A, C]⟩ .f32 :=
  maximumf v (broadcast ⟨2, ![A, C]⟩ (Scalar.ofBits .f32 0x00000000#32))

/-- The column of row means: the lane sum, given a unit axis, divided by the word `nw`. -/
def kMean (a : FVec Ideal ⟨2, ![A, C]⟩ .f32) : FVec Ideal ⟨2, ![A, 1]⟩ .f32 :=
  divf (shapeCast ⟨2, ![A, 1]⟩ (multiReduction .add [1] ⟨1, ![A]⟩ a 0x00000000#32 hr (.inl rfl) rfl) hc)
    (broadcast ⟨2, ![A, 1]⟩ (Scalar.ofBits .f32 nw))

/-- The kernel's normalisation of the rectified block. -/
def kernelNorm (v : FVec Ideal ⟨2, ![A, C]⟩ .f32) : FVec Ideal ⟨2, ![A, C]⟩ .f32 :=
  mulf (subf (kRelu v) (broadcastTo ⟨2, ![A, C]⟩ (kMean nw hr hc (kRelu v)) hb))
    (broadcastTo ⟨2, ![A, C]⟩
      (rsqrt (addf
        (kMean nw hr hc (mulf (subf (kRelu v) (broadcastTo ⟨2, ![A, C]⟩ (kMean nw hr hc (kRelu v)) hb))
          (subf (kRelu v) (broadcastTo ⟨2, ![A, C]⟩ (kMean nw hr hc (kRelu v)) hb))))
        (broadcast ⟨2, ![A, 1]⟩ (Scalar.ofBits .f32 ew)))) hb)

theorem kRelu_apply (v : FVec Ideal ⟨2, ![A, C]⟩ .f32) (i : (⟨2, ![A, C]⟩ : Shape).Idx) :
    kRelu v i = max (v i) 0 := by
  show max (v i) (Ideal.ofBits .f32 0x00000000#32) = _
  rw [Ideal.ofBits_zero_f32]

theorem kMean_apply (a : FVec Ideal ⟨2, ![A, C]⟩ .f32) (p : Fin A) (u : Fin 1) :
    kMean nw hr hc a (ix2 p u) = Ideal.div (∑ k : Fin C, a (ix2 p k)) (Ideal.ofBits .f32 nw) := by
  show Ideal.div (shapeCast ⟨2, ![A, 1]⟩ (multiReduction .add [1] ⟨1, ![A]⟩ a 0x00000000#32 hr (.inl rfl) rfl) hc (ix2 p u))
    (Ideal.ofBits .f32 nw) = _
  rw [Cert.LibColumn.shapeCast_a_a1_apply]
  refine congrArg (Ideal.div · (Ideal.ofBits .f32 nw)) ?_
  refine (Ideal.multiReduction_add_single a 0x00000000#32 hr (.inl rfl) rfl (ix1 p)).trans ?_
  exact Finset.sum_congr rfl fun k _ => congrArg a (lift_lane hr p k)

/-- THE KERNEL'S NORMALISATION READ AT `(p, q)`: `normRelu` of row `p`. -/
theorem kernelNorm_apply (v : FVec Ideal ⟨2, ![A, C]⟩ .f32) (p : Fin A) (q : Fin C) :
    kernelNorm nw ew hr hc hb v (ix2 p q)
      = normRelu (Ideal.ofBits .f32 nw) (Ideal.ofBits .f32 ew) (fun j => v (ix2 p j)) q := by
  unfold kernelNorm normRelu
  show (kRelu v (ix2 p q) - broadcastTo ⟨2, ![A, C]⟩ (kMean nw hr hc (kRelu v)) hb (ix2 p q))
      * broadcastTo ⟨2, ![A, C]⟩ _ hb (ix2 p q) = _
  rw [Cert.LibColumn.broadcastTo_a1_ab_apply, Cert.LibColumn.broadcastTo_a1_ab_apply]
  show (kRelu v (ix2 p q) - kMean nw hr hc (kRelu v) (ix2 p 0))
      * Ideal.rsqrt (kMean nw hr hc _ (ix2 p 0) + Ideal.ofBits .f32 ew) = _
  rw [kMean_apply, kMean_apply]
  simp only [kRelu_apply, mulf_apply, subf_apply, Cert.LibColumn.broadcastTo_a1_ab_apply, kMean_apply]

end Kernel

/-! ## The host's spelling -/

section Host
variable {A C : ℕ} (nw ew : BitVec 32)
  (hr : (⟨2, ![A, C]⟩ : Shape).ReducesTo [1] ⟨1, ![A]⟩)
  (hu : 0 < (⟨0, ![]⟩ : Shape).numel)
  (b0 : (⟨0, ![]⟩ : Shape).BroadcastsInDim ⟨2, ![A, C]⟩ ![])
  (b1 : (⟨1, ![A]⟩ : Shape).BroadcastsInDim ⟨2, ![A, 1]⟩ ![0])
  (b2 : (⟨0, ![]⟩ : Shape).BroadcastsInDim ⟨2, ![A, 1]⟩ ![])
  (b3 : (⟨2, ![A, 1]⟩ : Shape).BroadcastsInDim ⟨2, ![A, C]⟩ ![0, 1])

/-- `max v 0`, entry by entry, the zero spread from a rank-0 constant. -/
def hRelu (v : FVec Ideal ⟨2, ![A, C]⟩ .f32) : FVec Ideal ⟨2, ![A, C]⟩ .f32 :=
  maximumf v (broadcastInDim ⟨2, ![A, C]⟩ ![] b0 (constant ⟨0, ![]⟩ .f32 0x00000000#32))

/-- The column of row means: the host's sum from a zero initial value, given a unit axis, divided by the word `nw`. -/
def hMean (a : FVec Ideal ⟨2, ![A, C]⟩ .f32) : FVec Ideal ⟨2, ![A, 1]⟩ .f32 :=
  Host.divf (broadcastInDim ⟨2, ![A, 1]⟩ ![0] b1 (Host.reduceAdd a (constant ⟨0, ![]⟩ .f32 0x00000000#32) hr hu))
    (broadcastInDim ⟨2, ![A, 1]⟩ ![] b2 (constant ⟨0, ![]⟩ .f32 nw))

/-- The host's normalisation of the rectified array. -/
def hostNorm (v : FVec Ideal ⟨2, ![A, C]⟩ .f32) : FVec Ideal ⟨2, ![A, C]⟩ .f32 :=
  mulf (subf (hRelu b0 v) (broadcastInDim ⟨2, ![A, C]⟩ ![0, 1] b3 (hMean nw hr hu b1 b2 (hRelu b0 v))))
    (broadcastInDim ⟨2, ![A, C]⟩ ![0, 1] b3
      (Host.rsqrt (addf
        (hMean nw hr hu b1 b2 (mulf (subf (hRelu b0 v) (broadcastInDim ⟨2, ![A, C]⟩ ![0, 1] b3 (hMean nw hr hu b1 b2 (hRelu b0 v))))
          (subf (hRelu b0 v) (broadcastInDim ⟨2, ![A, C]⟩ ![0, 1] b3 (hMean nw hr hu b1 b2 (hRelu b0 v))))))
        (broadcastInDim ⟨2, ![A, 1]⟩ ![] b2 (constant ⟨0, ![]⟩ .f32 ew)))))

/-- The host's quotient at an index is the quotient of the entries. -/
theorem hostDivf_apply {s : Shape} (a b : FVec Ideal s .f32) (i : s.Idx) : Host.divf a b i = Ideal.div (a i) (b i) := rfl
/-- The host's reciprocal square root at an index is that of the entry. -/
theorem hostRsqrt_apply {s : Shape} (a : FVec Ideal s .f32) (i : s.Idx) : Host.rsqrt a i = Ideal.rsqrt (a i) := rfl

theorem hRelu_apply (v : FVec Ideal ⟨2, ![A, C]⟩ .f32) (i : (⟨2, ![A, C]⟩ : Shape).Idx) :
    hRelu b0 v i = max (v i) 0 := by
  unfold hRelu
  rw [maximumf_apply, Cert.LibColumn.broadcastInDim_scalar_apply, constant_apply, Ideal.ofBits_zero_f32]

theorem hMean_apply (hr' : (⟨2, ![A, C]⟩ : Shape).Reduces [1] ⟨1, ![A]⟩)
    (a : FVec Ideal ⟨2, ![A, C]⟩ .f32) (p : Fin A) (u : Fin 1) :
    hMean nw hr hu b1 b2 a (ix2 p u) = Ideal.div (∑ k : Fin C, a (ix2 p k)) (Ideal.ofBits .f32 nw) := by
  unfold hMean
  rw [hostDivf_apply, Cert.LibColumn.broadcastInDim_a_a1_apply, Cert.LibColumn.broadcastInDim_scalar_apply, constant_apply]
  simp only [Host.reduceAdd, Ideal.hostReduceAdd_def]
  rw [Ideal.hostReduceAdd_single hr hr', constant_apply, Ideal.ofBits_zero_f32, zero_add]
  exact congrArg (Ideal.div · (Ideal.ofBits .f32 nw))
    (Finset.sum_congr rfl fun k _ => congrArg a (lift_lane hr' p k))

/-- THE HOST'S NORMALISATION READ AT `(p, q)`: `normRelu` of row `p`. -/
theorem hostNorm_apply (hr' : (⟨2, ![A, C]⟩ : Shape).Reduces [1] ⟨1, ![A]⟩)
    (v : FVec Ideal ⟨2, ![A, C]⟩ .f32) (p : Fin A) (q : Fin C) :
    hostNorm nw ew hr hu b0 b1 b2 b3 v (ix2 p q)
      = normRelu (Ideal.ofBits .f32 nw) (Ideal.ofBits .f32 ew) (fun j => v (ix2 p j)) q := by
  have hcol : ∀ (x : FVec Ideal ⟨2, ![A, 1]⟩ .f32) (p' : Fin A) (c : Fin C),
      broadcastInDim ⟨2, ![A, C]⟩ ![0, 1] b3 x (ix2 p' c) = x (ix2 p' (0 : Fin 1)) :=
    fun x p' c => Cert.LibColumn.broadcastInDim_a1_ab_apply x b3 p' c
  have heps : ∀ i : (⟨2, ![A, 1]⟩ : Shape).Idx,
      broadcastInDim ⟨2, ![A, 1]⟩ ![] b2 (constant (F := Ideal) ⟨0, ![]⟩ .f32 ew) i = Ideal.ofBits .f32 ew :=
    fun i => Cert.LibColumn.broadcastInDim_scalar_apply _ b2 i
  unfold hostNorm normRelu
  simp only [mulf_apply, subf_apply, addf_apply, hostRsqrt_apply, hcol, heps,
    hMean_apply nw hr hu b1 b2 hr', hRelu_apply]

end Host

end Cert.LibRowNorm

end
-- ==== Proof.KernelPayload.lean ====
/-
  What the kernel's body leaves in each output block, entry by entry, on the extended reals.

  Over a block of 2000 nodes the body forms the pre-activation (two products with the weight blocks into zero
  accumulators, their sum, plus the bias row), rectifies and normalises each row, scales by one row and shifts by
  another. Changes of float format are the identity here. At `(p, q)` the result is a function of row `p` of the two
  aggregate blocks and of the parameter blocks.
-/
import proofs.«144930_j70746701299878_2_alg».proof.Proof.Gen.KernelIdeal.Value
import Idealize.ShloMosaic.Lib.ValueLayout
import proofs.«144930_j70746701299878_2_alg».proof.Proof.LibPlainDot
import proofs.«144930_j70746701299878_2_alg».proof.Proof.LibRowNorm

noncomputable section

namespace Cert.KernelIdeal.Payload

open Cert.KernelIdeal Cert.KernelIdeal.Gen Cert.KernelIdeal.Value Idealize.ShloMosaic Idealize.ShloMosaic.ValueIdx
open Cert.LibRowNorm Cert.LibPlainDot

/-! ## The first result's block -/

section First
variable (P0 : Vec Ideal S2000x64 .f32) (P1 : Vec Ideal S2000x32 .f32) (P2 : Vec Ideal S64x64 .f32)
  (P3 : Vec Ideal S32x64 .f32) (P4 P5 P6 : Vec Ideal S1x64 .f32)

/-- The pre-activation over the block: `aggX · Wxx + aggY · Wxy + bias`, in the body's own operations. -/
def preBlockX : FVec Ideal S2000x64 .f32 :=
  addf
    (addf
      (matmul dot_S2000x64_S64x64_S2000x64_1_0_0_1_n_n none
        (truncf .bf16 (shapeCast S2000x64 P0 shapeCasts_S2000x64_S2000x64) bitsLt_bf16_f32)
        (truncf .bf16 (shapeCast S64x64 P2 shapeCasts_S64x64_S64x64) bitsLt_bf16_f32)
        (constant S2000x64 .f32 0x00000000#32))
      (matmul dot_S2000x32_S32x64_S2000x64_1_0_0_1_n_n none (k0_pay2 P1)
        (truncf .bf16 (shapeCast S32x64 P3 shapeCasts_S32x64_S32x64) bitsLt_bf16_f32)
        (constant S2000x64 .f32 0x00000000#32)))
    (broadcastTo S2000x64 (shapeCast S1x64 P4 shapeCasts_S1x64_S1x64) broadcasts_S1x64_S2000x64)

/-- The body's normalised value is the row normalisation of that pre-activation. -/
theorem pay3_eq :
    k0_pay3 P0 P1 P2 P3 P4
      = kernelNorm 0x42800000#32 0x3727C5AC#32 reduces_S2000x64_S2000 shapeCasts_S2000_S2000x1
          broadcasts_S2000x1_S2000x64 (preBlockX P0 P1 P2 P3 P4) := rfl

/-- The pre-activation at `(p, j)`. -/
theorem preBlockX_apply (p : Fin 2000) (j : Fin 64) :
    preBlockX P0 P1 P2 P3 P4 (ix2 p j)
      = (∑ k : Fin 64, P0 (ix2 p k) * P2 (ix2 k j) + ∑ k : Fin 32, P1 (ix2 p k) * P3 (ix2 k j))
        + P4 (ix2 (0 : Fin 1) j) := by
  have e1 := matmul_plain_zero_apply (φ₁ := .bf16) (φ₂ := .bf16) (M := 2000) (K := 64) (N := 64) none P0 P2 p j
  have e2 := matmul_plain_zero_apply (φ₁ := .bf16) (φ₂ := .bf16) (M := 2000) (K := 32) (N := 64) none P1 P3 p j
  have e3 := broadcastTo_1b_ab_apply (a := 2000) (b := 64) P4 broadcasts_S1x64_S2000x64 p j
  unfold preBlockX k0_pay2
  simp only [shapeCast_self]
  exact congrArg₂ (· + ·) (congrArg₂ (· + ·) e1 e2) e3

/-- THE FIRST RESULT'S BLOCK at `(p, q)`. -/
theorem blockX_apply (p : Fin 2000) (q : Fin 64) :
    E11 P0 P1 P2 P3 P4 P5 P6 (ix2 p q)
      = normRelu (Ideal.ofBits .f32 0x42800000#32) (Ideal.ofBits .f32 0x3727C5AC#32)
          (fun j => (∑ k : Fin 64, P0 (ix2 p k) * P2 (ix2 k j) + ∑ k : Fin 32, P1 (ix2 p k) * P3 (ix2 k j))
            + P4 (ix2 (0 : Fin 1) j)) q
        * P5 (ix2 (0 : Fin 1) q) + P6 (ix2 (0 : Fin 1) q) := by
  have h0 : ix11_0 (ix2 p q) = ix2 p q := funext fun a => Fin.ext (by
    match a with
    | ⟨0, _⟩ => rfl
    | ⟨1, _⟩ => rfl)
  have h1 : ix11_1 (ix2 p q) = ix2 (0 : Fin 1) q := funext fun a => Fin.ext (by
    match a with
    | ⟨0, _⟩ => rfl
    | ⟨1, _⟩ => rfl)
  have h2 : ix11_2 (ix2 p q) = ix2 (0 : Fin 1) q := funext fun a => Fin.ext (by
    match a with
    | ⟨0, _⟩ => rfl
    | ⟨1, _⟩ => rfl)
  show (k0_pay3 P0 P1 P2 P3 P4) (ix11_0 (ix2 p q)) * P5 (ix11_1 (ix2 p q)) + P6 (ix11_2 (ix2 p q)) = _
  rw [h0, h1, h2, pay3_eq, kernelNorm_apply]
  simp only [preBlockX_apply]

end First

/-! ## The second result's block -/

section Second
variable (Q0 : Vec Ideal S2000x32 .f32) (Q1 : Vec Ideal S32x32 .f32) (Q2 Q3 Q4 : Vec Ideal S1x32 .f32)

/-- The pre-activation over the block: `aggY · Wy + bias`. -/
def preBlockY : FVec Ideal S2000x32 .f32 :=
  addf
    (matmul dot_S2000x32_S32x32_S2000x32_1_0_0_1_n_n none
      (truncf .bf16 (shapeCast S2000x32 Q0 shapeCasts_S2000x32_S2000x32) bitsLt_bf16_f32)
      (truncf .bf16 Q1 bitsLt_bf16_f32) (constant S2000x32 .f32 0x00000000#32))
    (broadcastTo S2000x32 (shapeCast S1x32 Q2 shapeCasts_S1x32_S1x32) broadcasts_S1x32_S2000x32)

/-- The body's scaled value is the row normalisation of that pre-activation, times the scale row. -/
theorem pay5_eq :
    k0_pay5 (truncf .bf16 (shapeCast S2000x32 Q0 shapeCasts_S2000x32_S2000x32) bitsLt_bf16_f32) Q1 Q2 Q3
      = mulf (kernelNorm 0x42000000#32 0x3727C5AC#32 reduces_S2000x32_S2000 shapeCasts_S2000_S2000x1
            broadcasts_S2000x1_S2000x32 (preBlockY Q0 Q1 Q2))
          (broadcastTo S2000x32 (shapeCast S1x32 Q3 shapeCasts_S1x32_S1x32) broadcasts_S1x32_S2000x32) := rfl

/-- The pre-activation at `(p, j)`. -/
theorem preBlockY_apply (p : Fin 2000) (j : Fin 32) :
    preBlockY Q0 Q1 Q2 (ix2 p j) = (∑ k : Fin 32, Q0 (ix2 p k) * Q1 (ix2 k j)) + Q2 (ix2 (0 : Fin 1) j) := by
  have e1 := matmul_plain_zero_apply (φ₁ := .bf16) (φ₂ := .bf16) (M := 2000) (K := 32) (N := 32) none Q0 Q1 p j
  have e3 := broadcastTo_1b_ab_apply (a := 2000) (b := 32) Q2 broadcasts_S1x32_S2000x32 p j
  unfold preBlockY
  simp only [shapeCast_self]
  exact congrArg₂ (· + ·) e1 e3

/-- THE SECOND RESULT'S BLOCK at `(p, q)`. -/
theorem blockY_apply (p : Fin 2000) (q : Fin 32) :
    E12 Q0 Q1 Q2 Q3 Q4 (ix2 p q)
      = normRelu (Ideal.ofBits .f32 0x42000000#32) (Ideal.ofBits .f32 0x3727C5AC#32)
          (fun j => (∑ k : Fin 32, Q0 (ix2 p k) * Q1 (ix2 k j)) + Q2 (ix2 (0 : Fin 1) j)) q
        * Q3 (ix2 (0 : Fin 1) q) + Q4 (ix2 (0 : Fin 1) q) := by
  have h0 : ix12_0 (ix2 p q) = ix2 p q := funext fun a => Fin.ext (by
    match a with
    | ⟨0, _⟩ => rfl
    | ⟨1, _⟩ => rfl)
  have h1 : ix12_1 (ix2 p q) = ix2 (0 : Fin 1) q := funext fun a => Fin.ext (by
    match a with
    | ⟨0, _⟩ => rfl
    | ⟨1, _⟩ => rfl)
  have e3 := broadcastTo_1b_ab_apply (a := 2000) (b := 32) Q3 broadcasts_S1x32_S2000x32 p q
  show (k0_pay5 (truncf .bf16 (shapeCast S2000x32 Q0 shapeCasts_S2000x32_S2000x32) bitsLt_bf16_f32) Q1 Q2 Q3)
      (ix12_0 (ix2 p q)) + Q4 (ix12_1 (ix2 p q)) = _
  rw [h0, h1, pay5_eq, mulf_apply, kernelNorm_apply]
  simp only [shapeCast_self, preBlockY_apply]
  exact congrArg (normRelu _ _ _ q * · + Q4 (ix2 (0 : Fin 1) q)) e3

end Second

end Cert.KernelIdeal.Payload

end
-- ==== Proof.LibRowGatherScatter.lean ====
/-
  A row gather and a row scatter-add, read at an index given by coordinates.

  `x[idx]` of a matrix `x : [N, C]` at a column of row numbers `idx : [E, 1]` is the matrix `[E, C]` whose row `e` is
  the row of `x` numbered `idx e` (read signed, clamped into `[0, N - 1]`). Adding rows `upd : [E, C]` into a matrix
  `x : [N, C]` at row numbers `idx : [E, 1]` leaves, at `(r, k)`, the entry of `x` plus the sum of `upd e k` over the
  `e` whose row number (read signed, not clamped) is exactly `r`; an update whose row number is outside `[0, N)` is
  dropped. Both are general in the three extents. A two-piece concatenation along the columns is read the same way.
-/
import Idealize.ShloMosaic.Lib.ValueIdx
import Idealize.ShloMosaic.Lib.Pipeline.Value
import Idealize.ShloMosaic.PureOps.Ideal.Laws

namespace Cert.LibRowGatherScatter

open Idealize.ShloMosaic Idealize.ShloMosaic.ValueIdx

variable {α : Type}

/-! ## The gather of whole rows -/

/-- The dimension numbers of `x[idx]` for `x : [N, C]`, `idx : [E, 1]`: the row axis collapsed and indexed, the column
    axis an offset axis taken whole. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row number that edge `e` gathers: its start index read signed and clamped into `[0, N - 1]`. -/
def gatheredRow {N E w : ℕ} (hN : 0 < N) (idx : IVec ⟨2, ![E, 1]⟩ w) (e : Fin E) : Fin N :=
  ⟨min (idx (ix2 e (0 : Fin 1))).toInt.toNat (N - 1), by omega⟩

/-- THE ROW GATHER READ AT `(e, k)`: the operand's row `gatheredRow idx e`, at column `k`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatheredRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    have h1 : (1 : Fin 2) ∉ (rowGatherDims N E C wf).startIndexMap :=
      fun h => Nat.one_ne_zero (congrArg Fin.val (List.mem_singleton.mp h))
    have hk : (1 : Fin 2) ∈ (rowGatherDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## The scatter-add of whole rows -/

/-- The dimension numbers of `x.at[idx].add(upd)` for `x : [N, C]`, `idx : [E, 1]`, `upd : [E, C]`: the row axis
    inserted and indexed, the column axis the window. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N E C w : ℕ} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at edge `e`'s row number, read signed. -/
theorem rowScatter_start_row :
    (rowScatterDims N E C wf).start (ix2 e k) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at column 0. -/
theorem rowScatter_start_col : (rowScatterDims N E C wf).start (ix2 e k) idx 1 = 0 := by
  unfold ScatterDims.start
  rw [dif_neg (fun h => Nat.one_ne_zero (congrArg Fin.val (List.mem_singleton.mp h)))]

/-- The row axis is inserted: no window coordinate. -/
theorem rowScatter_window_row : (rowScatterDims N E C wf).window (ix2 e k) 0 = 0 := by
  unfold ScatterDims.window
  rw [dif_neg (by simp [ScatterDims.sKept, Shape.kept, List.mem_filter])]

/-- On the column axis the window coordinate of update `(e, k)` is `k`. -/
theorem rowScatter_window_col : (rowScatterDims N E C wf).window (ix2 e k) 1 = k.val := by
  have hk : (1 : Fin 2) ∈ (rowScatterDims N E C wf).sKept := by
    simp [ScatterDims.sKept, Shape.kept, List.mem_filter, List.mem_finRange]
  unfold ScatterDims.window
  rw [dif_pos hk]
  rfl

end Coordinates

/-- WHERE UPDATE `(e, k')` LANDS: at `(r, k)` exactly when edge `e`'s row number, read signed, is `r`, and `k' = k`. A row
    number outside `[0, N)` lands nowhere. -/
theorem rowScatter_resultIdx?_eq_some_iff {N E C w : ℕ}
    (wf : ScatterDims.WF ⟨2, ![N, C]⟩ ⟨2, ![E, 1]⟩ ⟨2, ![E, C]⟩ [1] [0] [0] 1)
    (idx : IVec ⟨2, ![E, 1]⟩ w) (e : Fin E) (k' : Fin C) (r : Fin N) (k : Fin C) :
    (rowScatterDims N E C wf).resultIdx? (ix2 e k') idx = some (ix2 r k)
      ↔ (idx (ix2 e (0 : Fin 1))).toInt = (r.val : ℤ) ∧ k' = k := by
  have s0 := rowScatter_start_row wf idx e k'
  have s1 := rowScatter_start_col wf idx e k'
  have w0 := rowScatter_window_row wf e k'
  have w1 := rowScatter_window_col wf e k'
  have hr := r.isLt
  have hk' := k'.isLt
  unfold ScatterDims.resultIdx?
  constructor
  · intro hh
    split at hh
    · next h =>
      have hf := Option.some.inj hh
      have h0 := congrArg (fun f => (f 0).val) hf
      have h1 := congrArg (fun f => (f 1).val) hf
      have hb := (h 0).1
      simp only [s0, w0, s1, w1] at h0 h1 hb
      have e0 : ((ix2 r k) 0).val = r.val := rfl
      have e1 : ((ix2 r k) 1).val = k.val := rfl
      rw [e0] at h0
      rw [e1] at h1
      exact ⟨by omega, Fin.ext (by omega)⟩
    · exact absurd hh (by simp)
  · rintro ⟨hrow, rfl⟩
    have hN0 : (⟨2, ![N, C]⟩ : Shape).size 0 = N := rfl
    have hC1 : (⟨2, ![N, C]⟩ : Shape).size 1 = C := rfl
    have hall : ∀ a, 0 ≤ (rowScatterDims N E C wf).start (ix2 e k') idx a + ((rowScatterDims N E C wf).window (ix2 e k') a : ℤ)
        ∧ (rowScatterDims N E C wf).start (ix2 e k') idx a + ((rowScatterDims N E C wf).window (ix2 e k') a : ℤ)
          < ((⟨2, ![N, C]⟩ : Shape).size a : ℤ) := by
      refine Fin.forall_fin_two.mpr ⟨?_, ?_⟩
      · rw [s0, w0, hrow, hN0]; omega
      · rw [s1, w1, hC1]; omega
    rw [dif_pos hall]
    refine congrArg some (funext fun a => Fin.ext ?_)
    revert a
    refine Fin.forall_fin_two.mpr ⟨?_, ?_⟩
    · show ((rowScatterDims N E C wf).start (ix2 e k') idx 0 + ((rowScatterDims N E C wf).window (ix2 e k') 0 : ℤ)).toNat = r.val
      rw [s0, w0, hrow]; omega
    · show ((rowScatterDims N E C wf).start (ix2 e k') idx 1 + ((rowScatterDims N E C wf).window (ix2 e k') 1 : ℤ)).toNat = k'.val
      rw [s1, w1]; omega

/-- THE ROW SCATTER-ADD READ AT `(r, k)`, on the extended reals: the operand's entry plus the sum, over the edges whose
    row number read signed is `r`, of the update's entry `(e, k)`. -/
theorem hostScatterAdd_rows_apply {N E C w : ℕ}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (k : Fin C) :
    Ideal.hostScatterAdd (rowScatterDims N E C wf) x idx upd (ix2 r k)
      = x (ix2 r k) + ∑ e : Fin E, if (idx (ix2 e (0 : Fin 1))).toInt = (r.val : ℤ) then upd (ix2 e k) else 0 := by
  unfold Ideal.hostScatterAdd
  refine congrArg (x (ix2 r k) + ·) ?_
  rw [Finset.sum_filter, sum_idx2]
  refine Finset.sum_congr rfl fun e _ => ?_
  simp only [rowScatter_resultIdx?_eq_some_iff]
  by_cases hrow : (idx (ix2 e (0 : Fin 1))).toInt = (r.val : ℤ)
  · simp only [hrow, true_and, if_true]
    exact Finset.sum_ite_eq' Finset.univ k (fun k' => upd (ix2 e k')) |>.trans (if_pos (Finset.mem_univ k))
  · simp only [hrow, false_and, if_false]
    exact Finset.sum_const_zero

/-- The host's accumulating row scatter, at the instance where floats are extended reals, read at `(r, k)`. -/
theorem scatterAdd_rows_apply {φ : FTy} {N E C w : ℕ}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (r : Fin N) (k : Fin C) :
    Host.scatterAdd (rowScatterDims N E C wf) x idx upd (ix2 r k)
      = x (ix2 r k) + ∑ e : Fin E, if (idx (ix2 e (0 : Fin 1))).toInt = (r.val : ℤ) then upd (ix2 e k) else 0 :=
  hostScatterAdd_rows_apply wf x idx upd r k

/-! ## Two matrices side by side -/

/-- `[x₁ | x₂]` at a column that falls in `x₁` reads `x₁` at the same coordinates. -/
theorem concatenate_cols_apply_left {N A B T : ℕ} (x₁ : (⟨2, ![N, A]⟩ : Shape).Idx → α) (x₂ : (⟨2, ![N, B]⟩ : Shape).Idx → α)
    (h : Shape.Concatenates [⟨2, ![N, A]⟩, ⟨2, ![N, B]⟩] ⟨2, ![N, T]⟩ 1) (r : Fin N) (k : Fin T) (k' : Fin A)
    (hk : k'.val = k.val) :
    concatenate ⟨2, ![N, T]⟩ 1 [⟨⟨2, ![N, A]⟩, x₁⟩, ⟨⟨2, ![N, B]⟩, x₂⟩] h (ix2 r k) = x₁ (ix2 r k') :=
  concatenate_pair_apply_left 1 x₁ x₂ h (ix2 r k) rfl (ix2 r k') fun b =>
    match b with
    | ⟨0, _⟩ => rfl
    | ⟨1, _⟩ => hk

/-- `[x₁ | x₂]` at a column past `x₁`'s width reads `x₂` at that column less the width. -/
theorem concatenate_cols_apply_right {N A B T : ℕ} (x₁ : (⟨2, ![N, A]⟩ : Shape).Idx → α) (x₂ : (⟨2, ![N, B]⟩ : Shape).Idx → α)
    (h : Shape.Concatenates [⟨2, ![N, A]⟩, ⟨2, ![N, B]⟩] ⟨2, ![N, T]⟩ 1) (r : Fin N) (k : Fin T) (k' : Fin B)
    (hk : k'.val + A = k.val) :
    concatenate ⟨2, ![N, T]⟩ 1 [⟨⟨2, ![N, A]⟩, x₁⟩, ⟨⟨2, ![N, B]⟩, x₂⟩] h (ix2 r k) = x₂ (ix2 r k') :=
  concatenate_pair_apply_right 1 x₁ x₂ h (ix2 r k) rfl rfl (ix2 r k')
    (fun b hb =>
      match b, hb with
      | ⟨0, _⟩, _ => rfl
      | ⟨1, _⟩, hb => absurd rfl hb)
    hk

end Cert.LibRowGatherScatter
-- ==== Proof.GnnLayer.lean ====
/-
  One message-passing layer on a graph, as a function of its inputs, entry by entry, on the extended reals.

  Nodes `0 … N-1` carry feature rows `h_X : [N, 64]`, `h_Y : [N, 32]`; edge `e` goes from node `col e` to node `row e`.
  The aggregate of a feature at node `r` is the sum, over the edges into `r`, of the source node's row. The update
  of the first feature is an affine map of `[aggregate h_X | aggregate h_Y | h_t]` (a `128`-row weight matrix), rectified
  and layer-normalised over its 64 entries; of the second, the same over `aggregate h_Y` with a `32 × 32` matrix.
  The affine map of the concatenation is written here in the split form
    `(aggX · W[0:64] + aggY · W[64:96]) + (b + h_t · W[96:128])`,
  and `lin_split` is the law that one sum over 128 terms plus `b` is that: sums over a commutative monoid may be
  cut and re-bracketed freely, at the infinities too, so nothing here asks the inputs to be finite.
-/
import Idealize.ShloMosaic.PureOps.Ideal
import Idealize.ShloMosaic.Lib.ValueIdx
import proofs.«144930_j70746701299878_2_alg».proof.Proof.LibRowGatherScatter
import proofs.«144930_j70746701299878_2_alg».proof.Proof.LibRowNorm

noncomputable section

namespace Cert.GnnLayer

open Idealize.ShloMosaic Idealize.ShloMosaic.ValueIdx Cert.LibRowGatherScatter Cert.LibRowNorm

/-- The aggregate at node `r`, feature `k`: from the value `z`, the sum over the edges whose target row number (read
    signed) is `r` of the source row's entry, the source row number read signed and clamped into the table. -/
def aggregate {N E C : ℕ} (hN : 0 < N) (z : EReal) (ri ci : IVec ⟨2, ![E, 1]⟩ 32)
    (x : (⟨2, ![N, C]⟩ : Shape).Idx → EReal) (r : Fin N) (k : Fin C) : EReal :=
  z + ∑ e : Fin E, if (ri (ix2 e (0 : Fin 1))).toInt = (r.val : ℤ) then x (ix2 (gatheredRow hN ci e) k) else 0

/-- A sum over 128 terms cut at 64 and 96. -/
theorem sum_cut {M : Type*} [AddCommMonoid M] (f : Fin 128 → M) :
    ∑ k : Fin 128, f k
      = (∑ k : Fin 64, f ⟨k.val, by omega⟩ + ∑ k : Fin 32, f ⟨64 + k.val, by omega⟩)
        + ∑ k : Fin 32, f ⟨96 + k.val, by omega⟩ := by
  have h1 := Fin.sum_univ_add (M := M) (a := 96) (b := 32) f
  have h2 := Fin.sum_univ_add (M := M) (a := 64) (b := 32) (fun i : Fin 96 => f ⟨i.val, by omega⟩)
  rw [h1]
  refine congrArg₂ (· + ·) ?_ rfl
  exact h2

/-- The affine map of the concatenated row, split by the three blocks of weight rows. -/
def linSplit (aX : Fin 64 → EReal) (aY hT : Fin 32 → EReal) (W : Fin 128 → Fin 64 → EReal) (b : Fin 64 → EReal)
    (j : Fin 64) : EReal :=
  (∑ k : Fin 64, aX k * W ⟨k.val, by omega⟩ j + ∑ k : Fin 32, aY k * W ⟨64 + k.val, by omega⟩ j)
    + (b j + ∑ k : Fin 32, hT k * W ⟨96 + k.val, by omega⟩ j)

/-- THE LAW that joins the two programs: the product of the 128-wide row with the weight matrix, plus the bias, is the
    split form. Only associativity and commutativity of `+` are used. -/
theorem lin_split (H : Fin 128 → EReal) (W : Fin 128 → Fin 64 → EReal) (b : Fin 64 → EReal) (j : Fin 64) :
    (∑ k : Fin 128, H k * W k j) + b j
      = linSplit (fun k => H ⟨k.val, by omega⟩) (fun k => H ⟨64 + k.val, by omega⟩) (fun k => H ⟨96 + k.val, by omega⟩) W b j := by
  unfold linSplit
  rw [sum_cut (fun k => H k * W k j)]
  abel

section Outputs
variable (ri ci : IVec ⟨2, ![800000, 1]⟩ 32)
  (hX : (⟨2, ![50000, 64]⟩ : Shape).Idx → EReal) (hY : (⟨2, ![50000, 32]⟩ : Shape).Idx → EReal)
  (hT : (⟨2, ![1, 32]⟩ : Shape).Idx → EReal) (WX : (⟨2, ![128, 64]⟩ : Shape).Idx → EReal)
  (bX gX beX : (⟨1, ![64]⟩ : Shape).Idx → EReal)
  (WY : (⟨2, ![32, 32]⟩ : Shape).Idx → EReal) (bY gY beY : (⟨1, ![32]⟩ : Shape).Idx → EReal)

/-- The aggregate of the first feature at node `r`, from the value of the zero word. -/
def aggX (r : Fin 50000) (k : Fin 64) : EReal :=
  aggregate (by decide : 0 < 50000) (Ideal.ofBits .f32 0x00000000#32) ri ci hX r k
/-- The aggregate of the second feature at node `r`. -/
def aggY (r : Fin 50000) (k : Fin 32) : EReal :=
  aggregate (by decide : 0 < 50000) (Ideal.ofBits .f32 0x00000000#32) ri ci hY r k

/-- The first feature's pre-activation at node `r`. -/
def preX (r : Fin 50000) (j : Fin 64) : EReal :=
  linSplit (aggX ri ci hX r) (aggY ri ci hY r) (fun k => hT (ix2 (0 : Fin 1) k)) (fun a c => WX (ix2 a c))
    (fun c => bX (ix1 c)) j
/-- The second feature's pre-activation at node `r`. -/
def preY (r : Fin 50000) (j : Fin 32) : EReal :=
  (∑ k : Fin 32, aggY ri ci hY r k * WY (ix2 k j)) + bY (ix1 j)

/-- THE FIRST RESULT at `(r, j)`: the pre-activation rectified, normalised over its 64 entries, scaled and shifted. -/
def outX (r : Fin 50000) (j : Fin 64) : EReal :=
  normRelu (Ideal.ofBits .f32 0x42800000#32) (Ideal.ofBits .f32 0x3727C5AC#32) (preX ri ci hX hY hT WX bX r) j
    * gX (ix1 j) + beX (ix1 j)
/-- THE SECOND RESULT at `(r, j)`. -/
def outY (r : Fin 50000) (j : Fin 32) : EReal :=
  normRelu (Ideal.ofBits .f32 0x42000000#32) (Ideal.ofBits .f32 0x3727C5AC#32) (preY ri ci hY WY bY r) j
    * gY (ix1 j) + beY (ix1 j)

/-- The first result as an array. -/
def arrX : (⟨2, ![50000, 64]⟩ : Shape).Idx → EReal := fun i =>
  outX ri ci hX hY hT WX bX gX beX ⟨(i 0).val, idx2_lt0 i⟩ ⟨(i 1).val, idx2_lt1 i⟩
/-- The second result as an array. -/
def arrY : (⟨2, ![50000, 32]⟩ : Shape).Idx → EReal := fun i =>
  outY ri ci hY WY bY gY beY ⟨(i 0).val, idx2_lt0 i⟩ ⟨(i 1).val, idx2_lt1 i⟩

theorem arrX_ix2 (r : Fin 50000) (j : Fin 64) :
    arrX ri ci hX hY hT WX bX gX beX (ix2 r j) = outX ri ci hX hY hT WX bX gX beX r j := rfl
theorem arrY_ix2 (r : Fin 50000) (j : Fin 32) :
    arrY ri ci hY WY bY gY beY (ix2 r j) = outY ri ci hY WY bY gY beY r j := rfl

end Outputs

end Cert.GnnLayer

end
-- ==== Proof.KernelHost.lean ====
/-
  What the kernel's call finds in its eleven input arrays, entry by entry: the host operations before the call.

  The two aggregates are the host's gather and accumulating scatter over each feature table; the three weight blocks
  are rows `0…63`, `64…95`, `96…127` of the weight matrix; the bias row the call sees is the bias plus `h_t` times the
  third block; the other parameters are given a unit row axis.
-/
import proofs.«144930_j70746701299878_2_alg».proof.Proof.Gen.KernelIdeal.Value
import Idealize.ShloMosaic.Lib.StableHlo.Run
import Idealize.ShloMosaic.Lib.ValueLayout
import Idealize.ShloMosaic.PureOps.Ideal
import proofs.«144930_j70746701299878_2_alg».proof.Proof.LibColumn
import proofs.«144930_j70746701299878_2_alg».proof.Proof.LibPlainDot
import proofs.«144930_j70746701299878_2_alg».proof.Proof.LibRowGatherScatter
import proofs.«144930_j70746701299878_2_alg».proof.Proof.GnnLayer

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Cert.LibPlainDot Cert.LibRowGatherScatter Cert.LibColumn Cert.GnnLayer

variable (m : (ℓ : Loc nD τ sig) → Buf (Elt Ideal) ℓ) (c : Dev nD)

/-! The thirteen arguments as the call's device holds them, at their literal types. -/
abbrev inRow : S800000.Idx → BitVec 32 := m (c, Proc.tc.devRef main_arg0)
abbrev inCol : S800000.Idx → BitVec 32 := m (c, Proc.tc.devRef main_arg1)
abbrev inHX : S50000x64.Idx → EReal := m (c, Proc.tc.devRef main_arg2)
abbrev inHY : S50000x32.Idx → EReal := m (c, Proc.tc.devRef main_arg3)
abbrev inHT : S1x32.Idx → EReal := m (c, Proc.tc.devRef main_arg4)
abbrev inWX : S128x64.Idx → EReal := m (c, Proc.tc.devRef main_arg5)
abbrev inBX : S64.Idx → EReal := m (c, Proc.tc.devRef main_arg6)
abbrev inGX : S64.Idx → EReal := m (c, Proc.tc.devRef main_arg7)
abbrev inBeX : S64.Idx → EReal := m (c, Proc.tc.devRef main_arg8)
abbrev inWY : S32x32.Idx → EReal := m (c, Proc.tc.devRef main_arg9)
abbrev inBY : S32.Idx → EReal := m (c, Proc.tc.devRef main_arg10)
abbrev inGY : S32.Idx → EReal := m (c, Proc.tc.devRef main_arg11)
abbrev inBeY : S32.Idx → EReal := m (c, Proc.tc.devRef main_arg12)

/-- The edges' target row numbers, as a column. -/
def rowCol : IVec S800000x1 32 :=
  broadcastInDim S800000x1 ![0] bcast_S800000_S800000x1_0 (inRow m c)

/-- The edges' source row numbers, a negative one wrapped by the table's height, as a column. -/
def srcCol : IVec S800000x1 32 :=
  broadcastInDim S800000x1 ![0] bcast_S800000_S800000x1_0
    (select
      (cmpi CmpIPredicate.slt (inCol m c)
        (broadcastInDim S800000 ![] bcast_S_S800000 (constantI S_ 32 0#32)))
      (addi (inCol m c)
        (broadcastInDim S800000 ![] bcast_S_S800000 (constantI S_ 32 50000#32)))
      (inCol m c))

/-! ## The two aggregates -/

set_option maxHeartbeats 2000000 in
theorem aggX_term :
    (V m c main_v16 : S50000x64.Idx → EReal)
      = Host.scatterAdd scatter_S50000x64_S800000x1_S800000x64_1_0_0_1
          (broadcastInDim S50000x64 ![] bcast_S_S50000x64 (constant (F := Ideal) S_ .f32 0x00000000#32)) (rowCol m c)
          (Host.gather gather_S50000x64_S800000x1_S800000x64_1_0_n_n_0_1_164 (inHX m c) (srcCol m c)) := by
  dsimp only [Gen.V, Gen.hostOps0]
  after_results_simp <;> rfl

set_option maxHeartbeats 2000000 in
theorem aggY_term :
    (V m c main_v19 : S50000x32.Idx → EReal)
      = Host.scatterAdd scatter_S50000x32_S800000x1_S800000x32_1_0_0_1
          (broadcastInDim S50000x32 ![] bcast_S_S50000x32 (constant (F := Ideal) S_ .f32 0x00000000#32)) (rowCol m c)
          (Host.gather gather_S50000x32_S800000x1_S800000x32_1_0_n_n_0_1_132 (inHY m c) (srcCol m c)) := by
  dsimp only [Gen.V, Gen.hostOps0]
  after_results_simp <;> rfl

/-- THE FIRST AGGREGATE the call finds, at `(r, k)`. -/
theorem aggX_apply (r : Fin 50000) (k : Fin 64) :
    (V m c main_v16 : S50000x64.Idx → EReal) (ix2 r k)
      = aggX (rowCol m c) (srcCol m c) (inHX m c) r k := by
  rw [aggX_term]
  refine (scatterAdd_rows_apply scatter_S50000x64_S800000x1_S800000x64_1_0_0_1.wf _ _ _ r k).trans ?_
  unfold aggX aggregate
  rw [broadcastInDim_scalar_apply]
  exact congrArg (_ + ·) (Finset.sum_congr rfl fun e _ => if_congr Iff.rfl
    (gather_rows_apply (by decide : 0 < 50000) gather_S50000x64_S800000x1_S800000x64_1_0_n_n_0_1_164.wf _ _ e k) rfl)

/-- THE SECOND AGGREGATE the call finds, at `(r, k)`. -/
theorem aggY_apply (r : Fin 50000) (k : Fin 32) :
    (V m c main_v19 : S50000x32.Idx → EReal) (ix2 r k)
      = aggY (rowCol m c) (srcCol m c) (inHY m c) r k := by
  rw [aggY_term]
  refine (scatterAdd_rows_apply scatter_S50000x32_S800000x1_S800000x32_1_0_0_1.wf _ _ _ r k).trans ?_
  unfold aggY aggregate
  rw [broadcastInDim_scalar_apply]
  exact congrArg (_ + ·) (Finset.sum_congr rfl fun e _ => if_congr Iff.rfl
    (gather_rows_apply (by decide : 0 < 50000) gather_S50000x32_S800000x1_S800000x32_1_0_n_n_0_1_132.wf _ _ e k) rfl)

/-! ## The weight blocks -/

set_option maxHeartbeats 2000000 in
theorem wxx_term :
    (V m c main_v20 : S64x64.Idx → EReal)
      = extractStridedSlice S64x64 ![0, 0] (inWX m c) slices_S128x64_S64x64_0_0 := by
  dsimp only [Gen.V, Gen.hostOps0]
  after_results_simp <;> rfl

set_option maxHeartbeats 2000000 in
theorem wxy_term :
    (V m c main_v21 : S32x64.Idx → EReal)
      = extractStridedSlice S32x64 ![64, 0] (inWX m c) slices_S128x64_S32x64_64_0 := by
  dsimp only [Gen.V, Gen.hostOps0]
  after_results_simp <;> rfl

/-- The first weight block is rows `0…63` of the weight matrix. -/
theorem wxx_apply (k j : Fin 64) :
    (V m c main_v20 : S64x64.Idx → EReal) (ix2 k j)
      = (inWX m c) (ix2 (⟨k.val, by omega⟩ : Fin 128) j) := by
  rw [wxx_term]
  exact slice2_axis0_apply 0 _ slices_S128x64_S64x64_0_0 k j ⟨k.val, by omega⟩ (Nat.zero_add _).symm

/-- The second weight block is rows `64…95`. -/
theorem wxy_apply (k : Fin 32) (j : Fin 64) :
    (V m c main_v21 : S32x64.Idx → EReal) (ix2 k j)
      = (inWX m c) (ix2 (⟨64 + k.val, by omega⟩ : Fin 128) j) := by
  rw [wxy_term]
  exact slice2_axis0_apply 64 _ slices_S128x64_S32x64_64_0 k j ⟨64 + k.val, by omega⟩ rfl

/-! ## The bias row the call sees -/

set_option maxHeartbeats 2000000 in
theorem bias_term :
    (V m c main_v26 : S1x64.Idx → EReal)
      = (shapeCast S1x64
          (addf (F := Ideal) (inBX m c)
            (shapeCast S64
              (Host.dotGeneral (F := Ideal) (φ₁ := .f32) (φ₂ := .f32) dot_S1x32_S32x64_S1x64_1_0_0_1_n_n none (inHT m c)
                (extractStridedSlice (α := EReal) S32x64 ![96, 0] (inWX m c) slices_S128x64_S32x64_96_0))
              shapeCasts_S1x64_S64))
          shapeCasts_S64_S1x64 : S1x64.Idx → EReal) := by
  dsimp only [Gen.V, Gen.hostOps0]
  after_results_simp <;> rfl

/-- The bias plus `h_t` times rows `96…127` of the weight matrix. -/
theorem bias_apply (j : Fin 64) :
    (V m c main_v26 : S1x64.Idx → EReal) (ix2 (0 : Fin 1) j)
      = (inBX m c) (ix1 j)
        + ∑ k : Fin 32, (inHT m c) (ix2 (0 : Fin 1) k)
            * (inWX m c) (ix2 (⟨96 + k.val, by omega⟩ : Fin 128) j) := by
  rw [bias_term, shapeCast_a_1a_apply, addf_apply, shapeCast_1a_a_apply]
  refine congrArg (_ + ·) ?_
  refine (dotGeneral_plain_apply (φ₁ := .f32) (φ₂ := .f32) (M := 1) (K := 32) (N := 64) none _ _ 0 j).trans ?_
  exact Finset.sum_congr rfl fun k _ => congrArg (_ * ·)
    (slice2_axis0_apply 96 _ slices_S128x64_S32x64_96_0 k j ⟨96 + k.val, by omega⟩ rfl)

/-! ## The parameters given a unit row axis -/

set_option maxHeartbeats 2000000 in
theorem v27_term :
    (V m c main_v27 : S1x64.Idx → EReal) = shapeCast S1x64 (inGX m c) shapeCasts_S64_S1x64 := by
  dsimp only [Gen.V, Gen.hostOps0]
  after_results_simp <;> rfl

theorem v27_apply (j : Fin 64) :
    (V m c main_v27 : S1x64.Idx → EReal) (ix2 (0 : Fin 1) j)
      = (inGX m c) (ix1 j) := by
  rw [v27_term]
  exact shapeCast_a_1a_apply _ shapeCasts_S64_S1x64 0 j

set_option maxHeartbeats 2000000 in
theorem v28_term :
    (V m c main_v28 : S1x64.Idx → EReal) = shapeCast S1x64 (inBeX m c) shapeCasts_S64_S1x64 := by
  dsimp only [Gen.V, Gen.hostOps0]
  after_results_simp <;> rfl

theorem v28_apply (j : Fin 64) :
    (V m c main_v28 : S1x64.Idx → EReal) (ix2 (0 : Fin 1) j)
      = (inBeX m c) (ix1 j) := by
  rw [v28_term]
  exact shapeCast_a_1a_apply _ shapeCasts_S64_S1x64 0 j

set_option maxHeartbeats 2000000 in
theorem v29_term :
    (V m c main_v29 : S1x32.Idx → EReal) = shapeCast S1x32 (inBY m c) shapeCasts_S32_S1x32 := by
  dsimp only [Gen.V, Gen.hostOps0]
  after_results_simp <;> rfl

theorem v29_apply (j : Fin 32) :
    (V m c main_v29 : S1x32.Idx → EReal) (ix2 (0 : Fin 1) j)
      = (inBY m c) (ix1 j) := by
  rw [v29_term]
  exact shapeCast_a_1a_apply _ shapeCasts_S32_S1x32 0 j

set_option maxHeartbeats 2000000 in
theorem v30_term :
    (V m c main_v30 : S1x32.Idx → EReal) = shapeCast S1x32 (inGY m c) shapeCasts_S32_S1x32 := by
  dsimp only [Gen.V, Gen.hostOps0]
  after_results_simp <;> rfl

theorem v30_apply (j : Fin 32) :
    (V m c main_v30 : S1x32.Idx → EReal) (ix2 (0 : Fin 1) j)
      = (inGY m c) (ix1 j) := by
  rw [v30_term]
  exact shapeCast_a_1a_apply _ shapeCasts_S32_S1x32 0 j

set_option maxHeartbeats 2000000 in
theorem v31_term :
    (V m c main_v31 : S1x32.Idx → EReal) = shapeCast S1x32 (inBeY m c) shapeCasts_S32_S1x32 := by
  dsimp only [Gen.V, Gen.hostOps0]
  after_results_simp <;> rfl

theorem v31_apply (j : Fin 32) :
    (V m c main_v31 : S1x32.Idx → EReal) (ix2 (0 : Fin 1) j)
      = (inBeY m c) (ix1 j) := by
  rw [v31_term]
  exact shapeCast_a_1a_apply _ shapeCasts_S32_S1x32 0 j

end Cert.KernelIdeal.HostValue

end
-- ==== Proof.KernelValue.lean ====
/-
  From the kernel's blocks to its two result arrays.

  The grid has 25 points; point `t` reads rows `2000 t … 2000 t + 1999` of the two aggregates and the whole of every
  parameter array, and writes rows `2000 t … 2000 t + 1999` of each result. What it writes at `(p, q)` is the layer's
  function at `(2000 t + p, q)`; the 25 row bands tile the 50000 rows, so each result array ends as the layer's
  function of the call's arguments.
-/
import proofs.«144930_j70746701299878_2_alg».proof.Proof.KernelPayload
import proofs.«144930_j70746701299878_2_alg».proof.Proof.KernelHost
import proofs.«144930_j70746701299878_2_alg».proof.Proof.GnnLayer

noncomputable section

namespace Cert.KernelIdeal.KernelValue

open Cert.KernelIdeal Cert.KernelIdeal.Gen Cert.KernelIdeal.Value Cert.KernelIdeal.Payload Cert.KernelIdeal.HostValue
open Idealize.ShloMosaic Idealize.ShloMosaic.TcCoe Idealize.SL.Sem Idealize.ShloMosaic.ValueIdx
open Cert.GnnLayer Cert.LibRowNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer's first result over the call's arguments. -/
def GX (c : Dev nD) : S50000x64.Idx → EReal :=
  arrX (rowCol m c) (srcCol m c) (inHX m c) (inHY m c) (inHT m c) (inWX m c) (inBX m c) (inGX m c) (inBeX m c)
/-- The layer's second result over the call's arguments. -/
def GY (c : Dev nD) : S50000x32.Idx → EReal :=
  arrY (rowCol m c) (srcCol m c) (inHY m c) (inWY m c) (inBY m c) (inGY m c) (inBeY m c)

/-! ## The index maps, decided over the grid: the row-banded windows move with the point, the others stay -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-! ## Each input window's block, read at block coordinates -/

/-- Point `t`'s block of input window 0 sits at rows `2000 t … 2000 t + 1999` of its array. -/
theorem emb0 (t : Fin cfg0.N) (p : Fin 2000) (k : Fin 64) (R : Fin 50000) (hR : R.val = t.val * 2000 + p.val) :
    ((cfg0.win 0).blk t).view.emb (ix2 p k) = ix2 R k := by
  obtain ⟨e0, e1⟩ := idx0 t
  funext a; apply Fin.ext
  match a with
  | ⟨0, _⟩ => show win0_0.index t (0 : Fin 2) * 2000 + 1 * p.val = R.val; omega
  | ⟨1, _⟩ => show win0_0.index t (1 : Fin 2) * 64 + 1 * k.val = k.val; omega

/-- So that block holds rows `2000 t … 2000 t + 1999` of the aggregate. -/
theorem blk0_apply (c : Dev nD) (t : Fin cfg0.N) (p : Fin 2000) (k : Fin 64) (R : Fin 50000)
    (hR : R.val = t.val * 2000 + p.val) :
    iblk m c 0 t (ix2 p k) = aggX (rowCol m c) (srcCol m c) (inHX m c) R k := by
  unfold iblk
  rw [View.read_apply, emb0 t p k R hR, cast_eq]
  exact aggX_apply m c R k

/-- Point `t`'s block of input window 1 sits at rows `2000 t … 2000 t + 1999` of its array. -/
theorem emb1 (t : Fin cfg0.N) (p : Fin 2000) (k : Fin 32) (R : Fin 50000) (hR : R.val = t.val * 2000 + p.val) :
    ((cfg0.win 1).blk t).view.emb (ix2 p k) = ix2 R k := by
  obtain ⟨e0, e1⟩ := idx1 t
  funext a; apply Fin.ext
  match a with
  | ⟨0, _⟩ => show win0_1.index t (0 : Fin 2) * 2000 + 1 * p.val = R.val; omega
  | ⟨1, _⟩ => show win0_1.index t (1 : Fin 2) * 32 + 1 * k.val = k.val; omega

/-- So that block holds rows `2000 t … 2000 t + 1999` of the aggregate. -/
theorem blk1_apply (c : Dev nD) (t : Fin cfg0.N) (p : Fin 2000) (k : Fin 32) (R : Fin 50000)
    (hR : R.val = t.val * 2000 + p.val) :
    iblk m c 1 t (ix2 p k) = aggY (rowCol m c) (srcCol m c) (inHY m c) R k := by
  unfold iblk
  rw [View.read_apply, emb1 t p k R hR, cast_eq]
  exact aggY_apply m c R k

theorem emb2 (t : Fin cfg0.N) (k j : Fin 64) : ((cfg0.win 2).blk t).view.emb (ix2 k j) = (ix2 k j) := by
  obtain ⟨e0, e1⟩ := idx2 t
  funext a; apply Fin.ext
  match a with
  | ⟨0, _⟩ => show win0_2.index t (0 : Fin 2) * 64 + 1 * k.val = k.val; omega
  | ⟨1, _⟩ => show win0_2.index t (1 : Fin 2) * 64 + 1 * j.val = j.val; omega

theorem blk2_apply (c : Dev nD) (t : Fin cfg0.N) (k j : Fin 64) :
    iblk m c 2 t (ix2 k j) = inWX m c (ix2 (⟨k.val, by omega⟩ : Fin 128) j) := by
  unfold iblk
  rw [View.read_apply, emb2 t k j, cast_eq]
  exact wxx_apply m c k j

theorem emb3 (t : Fin cfg0.N) (k : Fin 32) (j : Fin 64) : ((cfg0.win 3).blk t).view.emb (ix2 k j) = (ix2 k j) := by
  obtain ⟨e0, e1⟩ := idx3 t
  funext a; apply Fin.ext
  match a with
  | ⟨0, _⟩ => show win0_3.index t (0 : Fin 2) * 32 + 1 * k.val = k.val; omega
  | ⟨1, _⟩ => show win0_3.index t (1 : Fin 2) * 64 + 1 * j.val = j.val; omega

theorem blk3_apply (c : Dev nD) (t : Fin cfg0.N) (k : Fin 32) (j : Fin 64) :
    iblk m c 3 t (ix2 k j) = inWX m c (ix2 (⟨64 + k.val, by omega⟩ : Fin 128) j) := by
  unfold iblk
  rw [View.read_apply, emb3 t k j, cast_eq]
  exact wxy_apply m c k j

theorem emb4 (t : Fin cfg0.N) (j : Fin 64) : ((cfg0.win 4).blk t).view.emb (ix2 (0 : Fin 1) j) = (ix2 (0 : Fin 1) j) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 64 + 1 * j.val = j.val; omega

theorem blk4_apply (c : Dev nD) (t : Fin cfg0.N) (j : Fin 64) :
    iblk m c 4 t (ix2 (0 : Fin 1) j) = inBX m c (ix1 j) + ∑ k : Fin 32, inHT m c (ix2 (0 : Fin 1) k) * inWX m c (ix2 (⟨96 + k.val, by omega⟩ : Fin 128) j) := by
  unfold iblk
  rw [View.read_apply, emb4 t j, cast_eq]
  exact bias_apply m c j

theorem emb5 (t : Fin cfg0.N) (j : Fin 64) : ((cfg0.win 5).blk t).view.emb (ix2 (0 : Fin 1) j) = (ix2 (0 : Fin 1) j) := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 64 + 1 * j.val = j.val; omega

theorem blk5_apply (c : Dev nD) (t : Fin cfg0.N) (j : Fin 64) :
    iblk m c 5 t (ix2 (0 : Fin 1) j) = inGX m c (ix1 j) := by
  unfold iblk
  rw [View.read_apply, emb5 t j, cast_eq]
  exact v27_apply m c j

theorem emb6 (t : Fin cfg0.N) (j : Fin 64) : ((cfg0.win 6).blk t).view.emb (ix2 (0 : Fin 1) j) = (ix2 (0 : Fin 1) j) := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 64 + 1 * j.val = j.val; omega

theorem blk6_apply (c : Dev nD) (t : Fin cfg0.N) (j : Fin 64) :
    iblk m c 6 t (ix2 (0 : Fin 1) j) = inBeX m c (ix1 j) := by
  unfold iblk
  rw [View.read_apply, emb6 t j, cast_eq]
  exact v28_apply m c j

theorem emb7 (t : Fin cfg0.N) (k j : Fin 32) : ((cfg0.win 7).blk t).view.emb (ix2 k j) = (ix2 k j) := by
  obtain ⟨e0, e1⟩ := idx7 t
  funext a; apply Fin.ext
  match a with
  | ⟨0, _⟩ => show win0_7.index t (0 : Fin 2) * 32 + 1 * k.val = k.val; omega
  | ⟨1, _⟩ => show win0_7.index t (1 : Fin 2) * 32 + 1 * j.val = j.val; omega

theorem blk7_apply (c : Dev nD) (t : Fin cfg0.N) (k j : Fin 32) :
    iblk m c 7 t (ix2 k j) = inWY m c (ix2 k j) := by
  unfold iblk
  rw [View.read_apply, emb7 t k j, cast_eq]
  exact congrFun (Gen.V_main_arg9 m c) (ix2 k j)

theorem emb8 (t : Fin cfg0.N) (j : Fin 32) : ((cfg0.win 8).blk t).view.emb (ix2 (0 : Fin 1) j) = (ix2 (0 : Fin 1) j) := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 32 + 1 * j.val = j.val; omega

theorem blk8_apply (c : Dev nD) (t : Fin cfg0.N) (j : Fin 32) :
    iblk m c 8 t (ix2 (0 : Fin 1) j) = inBY m c (ix1 j) := by
  unfold iblk
  rw [View.read_apply, emb8 t j, cast_eq]
  exact v29_apply m c j

theorem emb9 (t : Fin cfg0.N) (j : Fin 32) : ((cfg0.win 9).blk t).view.emb (ix2 (0 : Fin 1) j) = (ix2 (0 : Fin 1) j) := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 32 + 1 * j.val = j.val; omega

theorem blk9_apply (c : Dev nD) (t : Fin cfg0.N) (j : Fin 32) :
    iblk m c 9 t (ix2 (0 : Fin 1) j) = inGY m c (ix1 j) := by
  unfold iblk
  rw [View.read_apply, emb9 t j, cast_eq]
  exact v30_apply m c j

theorem emb10 (t : Fin cfg0.N) (j : Fin 32) : ((cfg0.win 10).blk t).view.emb (ix2 (0 : Fin 1) j) = (ix2 (0 : Fin 1) j) := by
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 32 + 1 * j.val = j.val; omega

theorem blk10_apply (c : Dev nD) (t : Fin cfg0.N) (j : Fin 32) :
    iblk m c 10 t (ix2 (0 : Fin 1) j) = inBeY m c (ix1 j) := by
  unfold iblk
  rw [View.read_apply, emb10 t j, cast_eq]
  exact v31_apply m c j
/-! ## What a point writes, at block coordinates -/

/-- Over blocks with the stated entries, the first result's block at `y` is the layer's first result at `i`. -/
theorem pointX (c : Dev nD) (P0 : Vec Ideal S2000x64 .f32) (P1 : Vec Ideal S2000x32 .f32) (P2 : Vec Ideal S64x64 .f32)
    (P3 : Vec Ideal S32x64 .f32) (P4 P5 P6 : Vec Ideal S1x64 .f32) (y : S2000x64.Idx) (i : S50000x64.Idx)
    (p : Fin 2000) (q : Fin 64) (R : Fin 50000)
    (hp : (y 0).val = p.val) (hq : (y 1).val = q.val) (hR : (i 0).val = R.val) (hj : (i 1).val = q.val)
    (h0 : ∀ k : Fin 64, P0 (ix2 p k) = aggX (rowCol m c) (srcCol m c) (inHX m c) R k)
    (h1 : ∀ k : Fin 32, P1 (ix2 p k) = aggY (rowCol m c) (srcCol m c) (inHY m c) R k)
    (h2 : ∀ k j : Fin 64, P2 (ix2 k j) = inWX m c (ix2 (⟨k.val, by omega⟩ : Fin 128) j))
    (h3 : ∀ (k : Fin 32) (j : Fin 64), P3 (ix2 k j) = inWX m c (ix2 (⟨64 + k.val, by omega⟩ : Fin 128) j))
    (h4 : ∀ j : Fin 64, P4 (ix2 (0 : Fin 1) j) = inBX m c (ix1 j)
      + ∑ k : Fin 32, inHT m c (ix2 (0 : Fin 1) k) * inWX m c (ix2 (⟨96 + k.val, by omega⟩ : Fin 128) j))
    (h5 : ∀ j : Fin 64, P5 (ix2 (0 : Fin 1) j) = inGX m c (ix1 j))
    (h6 : ∀ j : Fin 64, P6 (ix2 (0 : Fin 1) j) = inBeX m c (ix1 j)) :
    E11 P0 P1 P2 P3 P4 P5 P6 y = GX m c i := by
  obtain ⟨p', q', rfl⟩ : ∃ (p' : Fin 2000) (q' : Fin 64), y = ix2 p' q' := ⟨y 0, y 1, eq_ix2 y⟩
  obtain ⟨r', j', rfl⟩ : ∃ (r' : Fin 50000) (j' : Fin 64), i = ix2 r' j' := ⟨i 0, i 1, eq_ix2 i⟩
  obtain rfl : p' = p := Fin.ext hp
  obtain rfl : q' = q := Fin.ext hq
  obtain rfl : r' = R := Fin.ext hR
  obtain rfl : j' = q' := Fin.ext hj
  rw [blockX_apply]
  unfold GX
  rw [arrX_ix2]
  unfold outX preX linSplit
  simp only [h0, h1, h2, h3, h4, h5, h6]

/-- Over blocks with the stated entries, the second result's block at `y` is the layer's second result at `i`. -/
theorem pointY (c : Dev nD) (Q0 : Vec Ideal S2000x32 .f32) (Q1 : Vec Ideal S32x32 .f32) (Q2 Q3 Q4 : Vec Ideal S1x32 .f32)
    (y : S2000x32.Idx) (i : S50000x32.Idx) (p : Fin 2000) (q : Fin 32) (R : Fin 50000)
    (hp : (y 0).val = p.val) (hq : (y 1).val = q.val) (hR : (i 0).val = R.val) (hj : (i 1).val = q.val)
    (h0 : ∀ k : Fin 32, Q0 (ix2 p k) = aggY (rowCol m c) (srcCol m c) (inHY m c) R k)
    (h1 : ∀ k j : Fin 32, Q1 (ix2 k j) = inWY m c (ix2 k j))
    (h2 : ∀ j : Fin 32, Q2 (ix2 (0 : Fin 1) j) = inBY m c (ix1 j))
    (h3 : ∀ j : Fin 32, Q3 (ix2 (0 : Fin 1) j) = inGY m c (ix1 j))
    (h4 : ∀ j : Fin 32, Q4 (ix2 (0 : Fin 1) j) = inBeY m c (ix1 j)) :
    E12 Q0 Q1 Q2 Q3 Q4 y = GY m c i := by
  obtain ⟨p', q', rfl⟩ : ∃ (p' : Fin 2000) (q' : Fin 32), y = ix2 p' q' := ⟨y 0, y 1, eq_ix2 y⟩
  obtain ⟨r', j', rfl⟩ : ∃ (r' : Fin 50000) (j' : Fin 32), i = ix2 r' j' := ⟨i 0, i 1, eq_ix2 i⟩
  obtain rfl : p' = p := Fin.ext hp
  obtain rfl : q' = q := Fin.ext hq
  obtain rfl : r' = R := Fin.ext hR
  obtain rfl : j' = q' := Fin.ext hj
  rw [blockY_apply]
  unfold GY
  rw [arrY_ix2]
  unfold outY preY
  simp only [h0, h1, h2, h3, h4]

/-! ## What point `t` writes back -/

/-- Point `t` writes back rows `2000 t … 2000 t + 1999` of the layer's first result. -/
theorem flushedX_eq (c : Dev nD) (t : Fin cfg0.N) :
    (dats m 0 c).flushed 11 t = ((cfg0.win 11).blk t).view.read (Elt Ideal) (GX m c) := by
  rw [Value.flushed11]
  funext y
  rw [View.read_apply, cast_eq]
  unfold Pipeline.Window.cut out0_11
  simp only [View.ld_unit_zero (S := S2000x64) hz, View.ld_unit_zero (S := S2000x32) hz,
    View.ld_unit_zero (S := S64x64) hz, View.ld_unit_zero (S := S32x64) hz, View.ld_unit_zero (S := S1x64) hz]
  refine (canon11_eq (iblk m c 0 t) (iblk m c 1 t) (iblk m c 2 t) (iblk m c 3 t) (iblk m c 4 t) (iblk m c 5 t) (iblk m c 6 t)
    ((cfg0.win 11).xinj (grid0.coords t) y)).trans ?_
  have hy0 : (y 0).val < 2000 := (y 0).isLt
  have hy1 : (y 1).val < 64 := (y 1).isLt
  have ht : t.val < 25 := t.isLt
  obtain ⟨e0, e1⟩ := idx11 t
  refine pointX m c (iblk m c 0 t) (iblk m c 1 t) (iblk m c 2 t) (iblk m c 3 t) (iblk m c 4 t) (iblk m c 5 t) (iblk m c 6 t) _ _
    ⟨(y 0).val, hy0⟩ ⟨(y 1).val, hy1⟩ ⟨t.val * 2000 + (y 0).val, by omega⟩ rfl rfl ?_ ?_
    (fun k => blk0_apply m c t _ k _ rfl) (fun k => blk1_apply m c t _ k _ rfl)
    (fun k j => blk2_apply m c t k j) (fun k j => blk3_apply m c t k j) (fun j => blk4_apply m c t j)
    (fun j => blk5_apply m c t j) (fun j => blk6_apply m c t j)
  · show win0_11.index t (0 : Fin 2) * 2000 + 1 * (y 0).val = t.val * 2000 + (y 0).val
    omega
  · show win0_11.index t (1 : Fin 2) * 64 + 1 * (y 1).val = (y 1).val
    omega

/-- Point `t` writes back rows `2000 t … 2000 t + 1999` of the layer's second result. -/
theorem flushedY_eq (c : Dev nD) (t : Fin cfg0.N) :
    (dats m 0 c).flushed 12 t = ((cfg0.win 12).blk t).view.read (Elt Ideal) (GY m c) := by
  rw [Value.flushed12]
  funext y
  rw [View.read_apply, cast_eq]
  unfold Pipeline.Window.cut out0_12
  simp only [View.ld_unit_zero (S := S2000x32) hz, View.ld_unit_zero (S := S32x32) hz, View.ld_unit_zero (S := S1x32) hz]
  refine (canon12_eq (iblk m c 1 t) (iblk m c 7 t) (iblk m c 8 t) (iblk m c 9 t) (iblk m c 10 t)
    ((cfg0.win 12).xinj (grid0.coords t) y)).trans ?_
  have hy0 : (y 0).val < 2000 := (y 0).isLt
  have hy1 : (y 1).val < 32 := (y 1).isLt
  have ht : t.val < 25 := t.isLt
  obtain ⟨e0, e1⟩ := idx12 t
  refine pointY m c (iblk m c 1 t) (iblk m c 7 t) (iblk m c 8 t) (iblk m c 9 t) (iblk m c 10 t) _ _
    ⟨(y 0).val, hy0⟩ ⟨(y 1).val, hy1⟩ ⟨t.val * 2000 + (y 0).val, by omega⟩ rfl rfl ?_ ?_
    (fun k => blk1_apply m c t _ k _ rfl) (fun k j => blk7_apply m c t k j) (fun j => blk8_apply m c t j)
    (fun j => blk9_apply m c t j) (fun j => blk10_apply m c t j)
  · show win0_12.index t (0 : Fin 2) * 2000 + 1 * (y 0).val = t.val * 2000 + (y 0).val
    omega
  · show win0_12.index t (1 : Fin 2) * 32 + 1 * (y 1).val = (y 1).val
    omega

/-! ## The row bands tile the results -/

theorem mem_blkX (t : Fin cfg0.N) (i : S50000x64.Idx) :
    i ∈ ((cfg0.win 11).blk t).view.set ↔ ∀ a : Fin 2, win0_11.index t a * S2000x64.size a ≤ (i a).val
      ∧ (i a).val < win0_11.index t a * S2000x64.size a + S2000x64.size a := by
  show i ∈ ((View.whole main_v32_0).slice (win0_11.rect t)).set ↔ _
  rw [View.set_slice_whole, Rect.mem_set_unit]
  exact Iff.rfl

theorem mem_blkY (t : Fin cfg0.N) (i : S50000x32.Idx) :
    i ∈ ((cfg0.win 12).blk t).view.set ↔ ∀ a : Fin 2, win0_12.index t a * S2000x32.size a ≤ (i a).val
      ∧ (i a).val < win0_12.index t a * S2000x32.size a + S2000x32.size a := by
  show i ∈ ((View.whole main_v32_1).slice (win0_12.rect t)).set ↔ _
  rw [View.set_slice_whole, Rect.mem_set_unit]
  exact Iff.rfl

/-- Row `r` of the first result is in the band of point `r / 2000`. -/
theorem coverX (i : S50000x64.Idx) :
    ∃ t : Fin cfg0.N, (cfg0.win 11).flush t = true ∧ i ∈ ((cfg0.win 11).blk t).view.set := by
  have hi0 : (i 0).val < 50000 := (i 0).isLt
  have hi1 : (i 1).val < 64 := (i 1).isLt
  have hN : (i 0).val / 2000 < cfg0.N := by show (i 0).val / 2000 < 25; omega
  obtain ⟨e0, e1⟩ := idx11 ⟨(i 0).val / 2000, hN⟩
  have e0' : win0_11.index ⟨(i 0).val / 2000, hN⟩ (0 : Fin 2) = (i 0).val / 2000 := e0
  refine ⟨⟨(i 0).val / 2000, hN⟩, flush0_11 _, ?_⟩
  rw [mem_blkX]
  intro a
  match a with
  | ⟨0, _⟩ =>
    show win0_11.index ⟨(i 0).val / 2000, hN⟩ (0 : Fin 2) * 2000 ≤ (i 0).val
      ∧ (i 0).val < win0_11.index ⟨(i 0).val / 2000, hN⟩ (0 : Fin 2) * 2000 + 2000
    omega
  | ⟨1, _⟩ =>
    show win0_11.index ⟨(i 0).val / 2000, hN⟩ (1 : Fin 2) * 64 ≤ (i 1).val
      ∧ (i 1).val < win0_11.index ⟨(i 0).val / 2000, hN⟩ (1 : Fin 2) * 64 + 64
    omega

/-- Row `r` of the second result is in the band of point `r / 2000`. -/
theorem coverY (i : S50000x32.Idx) :
    ∃ t : Fin cfg0.N, (cfg0.win 12).flush t = true ∧ i ∈ ((cfg0.win 12).blk t).view.set := by
  have hi0 : (i 0).val < 50000 := (i 0).isLt
  have hi1 : (i 1).val < 32 := (i 1).isLt
  have hN : (i 0).val / 2000 < cfg0.N := by show (i 0).val / 2000 < 25; omega
  obtain ⟨e0, e1⟩ := idx12 ⟨(i 0).val / 2000, hN⟩
  have e0' : win0_12.index ⟨(i 0).val / 2000, hN⟩ (0 : Fin 2) = (i 0).val / 2000 := e0
  refine ⟨⟨(i 0).val / 2000, hN⟩, flush0_12 _, ?_⟩
  rw [mem_blkY]
  intro a
  match a with
  | ⟨0, _⟩ =>
    show win0_12.index ⟨(i 0).val / 2000, hN⟩ (0 : Fin 2) * 2000 ≤ (i 0).val
      ∧ (i 0).val < win0_12.index ⟨(i 0).val / 2000, hN⟩ (0 : Fin 2) * 2000 + 2000
    omega
  | ⟨1, _⟩ =>
    show win0_12.index ⟨(i 0).val / 2000, hN⟩ (1 : Fin 2) * 32 ≤ (i 1).val
      ∧ (i 1).val < win0_12.index ⟨(i 0).val / 2000, hN⟩ (1 : Fin 2) * 32 + 32
    omega

/-! ## The result arrays, and the run -/

/-- THE FIRST RESULT ARRAY after the run is the layer's first result of the call's arguments. -/
theorem finalX (c : Dev nD) : (dats m 0 c).arrAt 11 cfg0.N = GX m c :=
  (dats m 0 c).arrAt_eq_of_cover 11 (GX m c) (fun t _ => flushedX_eq m c t) coverX

/-- THE SECOND RESULT ARRAY after the run is the layer's second result of the call's arguments. -/
theorem finalY (c : Dev nD) : (dats m 0 c).arrAt 12 cfg0.N = GY m c :=
  (dats m 0 c).arrAt_eq_of_cover 12 (GY m c) (fun t _ => flushedY_eq m c t) coverY

/-- The kernel's run: every weakly fair execution ends with the two results at the layer's function of the arguments,
    and the arguments unchanged. -/
theorem run : θ_run defs (onTc (τ := τ) (main (F := Ideal))) ⟨m, fun _ => 0, ρ⟩ fun r => ∀ c : Dev nD,
      r.2.mem ((c : Thread nD τ).loc main_v32_0) = GX m c
      ∧ r.2.mem ((c : Thread nD τ).loc main_v32_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (finalX m c), (h c).2.1.trans (finalY m c), (h c).2.2⟩)
    (Value.run_blocks m ρ)

end Cert.KernelIdeal.KernelValue

end
-- ==== Proof.RefValue.lean ====
/-
  The reference's two results, entry by entry, are the layer's function of the arguments.

  The reference concatenates the two feature tables, gathers and sums the 96-wide rows once, appends the spread
  `h_t` row, and multiplies the 128-wide row by the whole weight matrix. Read at an index, the 96-wide aggregate is
  the 64-wide one on its first 64 columns and the 32-wide one on the rest (the edge that hits a row and the source row it
  reads do not depend on the column), so the product is the split form by `lin_split`; the rest is the host's spelling
  of the rectified row normalisation, scale and shift.
-/
import proofs.«144930_j70746701299878_2_alg».proof.Proof.Gen.ReferenceIdeal.Read
import Idealize.ShloMosaic.Lib.ValueLayout
import proofs.«144930_j70746701299878_2_alg».proof.Proof.LibColumn
import proofs.«144930_j70746701299878_2_alg».proof.Proof.LibPlainDot
import proofs.«144930_j70746701299878_2_alg».proof.Proof.LibRowNorm
import proofs.«144930_j70746701299878_2_alg».proof.Proof.LibRowGatherScatter
import proofs.«144930_j70746701299878_2_alg».proof.Proof.GnnLayer

noncomputable section

namespace Cert.ReferenceIdeal.RefValue

open Cert.ReferenceIdeal Cert.ReferenceIdeal.Gen Cert.ReferenceIdeal.Read Idealize.ShloMosaic Idealize.ShloMosaic.ValueIdx
open Cert.LibRowNorm Cert.LibPlainDot Cert.LibRowGatherScatter Cert.LibColumn Cert.GnnLayer

variable (x0 x1 : (⟨S800000, .i32⟩ : BufTy).Contents (Elt Ideal)) (x2 : (⟨S50000x64, .f32⟩ : BufTy).Contents (Elt Ideal)) (x3 : (⟨S50000x32, .f32⟩ : BufTy).Contents (Elt Ideal))
  (x4 : (⟨S1x32, .f32⟩ : BufTy).Contents (Elt Ideal)) (x5 : (⟨S128x64, .f32⟩ : BufTy).Contents (Elt Ideal))
  (x6 x7 x8 : (⟨S64, .f32⟩ : BufTy).Contents (Elt Ideal))
  (x9 : (⟨S32x32, .f32⟩ : BufTy).Contents (Elt Ideal)) (x10 x11 x12 : (⟨S32, .f32⟩ : BufTy).Contents (Elt Ideal))

/-! ## The 96-wide aggregate, column by column -/

/-- The gathered 96-wide row of edge `e`, at a column of the first table. -/
theorem gathered_left (e : Fin 800000) (k : Fin 64) :
    val_main_v7 (F := Ideal) x1 x2 x3 (ix2 e (⟨k.val, by omega⟩ : Fin 96))
      = x2 (ix2 (gatheredRow (by decide : 0 < 50000) (val_main_v6 (F := Ideal) x1) e) k) := by
  unfold val_main_v7 val_main_v0
  refine (gather_rows_apply (by decide : 0 < 50000) gather_S50000x96_S800000x1_S800000x96_1_0_n_n_0_1_196.wf _ _ e _).trans ?_
  exact concatenate_cols_apply_left x2 x3 concatenates_S50000x64_S50000x32_S50000x96_d1 _ _ k rfl

/-- The gathered 96-wide row of edge `e`, at a column of the second table. -/
theorem gathered_right (e : Fin 800000) (k : Fin 32) :
    val_main_v7 (F := Ideal) x1 x2 x3 (ix2 e (⟨64 + k.val, by omega⟩ : Fin 96))
      = x3 (ix2 (gatheredRow (by decide : 0 < 50000) (val_main_v6 (F := Ideal) x1) e) k) := by
  unfold val_main_v7 val_main_v0
  refine (gather_rows_apply (by decide : 0 < 50000) gather_S50000x96_S800000x1_S800000x96_1_0_n_n_0_1_196.wf _ _ e _).trans ?_
  exact concatenate_cols_apply_right x2 x3 concatenates_S50000x64_S50000x32_S50000x96_d1 _ _ k (Nat.add_comm _ _)

/-- The zero table the sums start from, at any entry. -/
theorem zero_table (i : S50000x96.Idx) : val_main_v8 (F := Ideal) i = Ideal.ofBits .f32 0x00000000#32 := by
  unfold val_main_v8 val_main_cst
  exact broadcastInDim_scalar_apply _ bcast_S_S50000x96 i

/-- The 96-wide aggregate on its first 64 columns is the first feature's aggregate. -/
theorem aggregate_left (r : Fin 50000) (k : Fin 64) :
    val_main_v10 (F := Ideal) x0 x1 x2 x3 (ix2 r (⟨k.val, by omega⟩ : Fin 96))
      = aggX (val_main_v9 (F := Ideal) x0) (val_main_v6 (F := Ideal) x1) x2 r k := by
  unfold val_main_v10
  refine (scatterAdd_rows_apply scatter_S50000x96_S800000x1_S800000x96_1_0_0_1.wf _ _ _ r _).trans ?_
  unfold aggX aggregate
  rw [zero_table]
  exact congrArg (_ + ·) (Finset.sum_congr rfl fun e _ => if_congr Iff.rfl (gathered_left x1 x2 x3 e k) rfl)

/-- The 96-wide aggregate on its last 32 columns is the second feature's aggregate. -/
theorem aggregate_right (r : Fin 50000) (k : Fin 32) :
    val_main_v10 (F := Ideal) x0 x1 x2 x3 (ix2 r (⟨64 + k.val, by omega⟩ : Fin 96))
      = aggY (val_main_v9 (F := Ideal) x0) (val_main_v6 (F := Ideal) x1) x3 r k := by
  unfold val_main_v10
  refine (scatterAdd_rows_apply scatter_S50000x96_S800000x1_S800000x96_1_0_0_1.wf _ _ _ r _).trans ?_
  unfold aggY aggregate
  rw [zero_table]
  exact congrArg (_ + ·) (Finset.sum_congr rfl fun e _ => if_congr Iff.rfl (gathered_right x1 x2 x3 e k) rfl)

/-! ## The 128-wide row, piece by piece -/

theorem row_left (r : Fin 50000) (k : Fin 64) :
    val_main_v13 (F := Ideal) x0 x1 x2 x3 x4 (ix2 r (⟨k.val, by omega⟩ : Fin 128))
      = aggX (val_main_v9 (F := Ideal) x0) (val_main_v6 (F := Ideal) x1) x2 r k := by
  unfold val_main_v13
  exact (concatenate_cols_apply_left _ _ concatenates_S50000x96_S50000x32_S50000x128_d1 r _
    (⟨k.val, by omega⟩ : Fin 96) rfl).trans (aggregate_left x0 x1 x2 x3 r k)

theorem row_mid (r : Fin 50000) (k : Fin 32) :
    val_main_v13 (F := Ideal) x0 x1 x2 x3 x4 (ix2 r (⟨64 + k.val, by omega⟩ : Fin 128))
      = aggY (val_main_v9 (F := Ideal) x0) (val_main_v6 (F := Ideal) x1) x3 r k := by
  unfold val_main_v13
  exact (concatenate_cols_apply_left _ _ concatenates_S50000x96_S50000x32_S50000x128_d1 r _
    (⟨64 + k.val, by omega⟩ : Fin 96) rfl).trans (aggregate_right x0 x1 x2 x3 r k)

theorem row_right (r : Fin 50000) (k : Fin 32) :
    val_main_v13 (F := Ideal) x0 x1 x2 x3 x4 (ix2 r (⟨96 + k.val, by omega⟩ : Fin 128)) = x4 (ix2 (0 : Fin 1) k) := by
  unfold val_main_v13 val_main_v12
  exact (concatenate_cols_apply_right _ _ concatenates_S50000x96_S50000x32_S50000x128_d1 r _ k
    (Nat.add_comm _ _)).trans (broadcastInDim_1b_ab_apply x4 bcast_S1x32_S50000x32_0_1 r k)

/-! ## The first result -/

/-- A per-feature parameter spread over the rows reads, at `(r, j)`, its entry `j`. -/
theorem param64 (x : (⟨S64, .f32⟩ : BufTy).Contents (Elt Ideal)) (r : Fin 50000) (j : Fin 64) :
    broadcastInDim S50000x64 ![0, 1] bcast_S1x64_S50000x64_0_1 (broadcastInDim S1x64 ![1] bcast_S64_S1x64_1 x) (ix2 r j)
      = x (ix1 j) :=
  (broadcastInDim_1b_ab_apply _ bcast_S1x64_S50000x64_0_1 r j).trans (broadcastInDim_b_1b_apply x bcast_S64_S1x64_1 0 j)

/-- The product of the 128-wide row with the weight matrix, at `(r, j)`. -/
theorem pre_sum (r : Fin 50000) (j : Fin 64) :
    val_main_v14 (F := Ideal) x0 x1 x2 x3 x4 x5 (ix2 r j)
      = ∑ k : Fin 128, val_main_v13 (F := Ideal) x0 x1 x2 x3 x4 (ix2 r k) * x5 (ix2 k j) := by
  unfold val_main_v14
  exact dotGeneral_plain_apply (φ₁ := .f32) (φ₂ := .f32) (M := 50000) (K := 128) (N := 64) none _ x5 r j

/-- The bias spread over the rows, at `(r, j)`. -/
theorem pre_bias (r : Fin 50000) (j : Fin 64) : val_main_v16 (F := Ideal) x6 (ix2 r j) = x6 (ix1 j) := by
  unfold val_main_v16 val_main_v15
  exact param64 x6 r j

/-- The law `lin_split` at the reference's 128-wide row. -/
theorem pre_split (r : Fin 50000) (j : Fin 64) :
    (∑ k : Fin 128, val_main_v13 (F := Ideal) x0 x1 x2 x3 x4 (ix2 r k) * x5 (ix2 k j)) + x6 (ix1 j)
      = linSplit (fun k : Fin 64 => val_main_v13 (F := Ideal) x0 x1 x2 x3 x4 (ix2 r (⟨k.val, by omega⟩ : Fin 128)))
          (fun k : Fin 32 => val_main_v13 (F := Ideal) x0 x1 x2 x3 x4 (ix2 r (⟨64 + k.val, by omega⟩ : Fin 128)))
          (fun k : Fin 32 => val_main_v13 (F := Ideal) x0 x1 x2 x3 x4 (ix2 r (⟨96 + k.val, by omega⟩ : Fin 128)))
          (fun a c => x5 (ix2 a c)) (fun c => x6 (ix1 c)) j :=
  lin_split (fun k => val_main_v13 (F := Ideal) x0 x1 x2 x3 x4 (ix2 r k)) (fun a c => x5 (ix2 a c))
    (fun c => x6 (ix1 c)) j

/-- The reference's pre-activation of the first feature is the split form. -/
theorem preX_eq (r : Fin 50000) (j : Fin 64) :
    val_main_v17 (F := Ideal) x0 x1 x2 x3 x4 x5 x6 (ix2 r j)
      = preX (val_main_v9 (F := Ideal) x0) (val_main_v6 (F := Ideal) x1) x2 x3 x4 x5 x6 r j := by
  have f1 : (fun k : Fin 64 => val_main_v13 (F := Ideal) x0 x1 x2 x3 x4 (ix2 r (⟨k.val, by omega⟩ : Fin 128)))
      = aggX (val_main_v9 (F := Ideal) x0) (val_main_v6 (F := Ideal) x1) x2 r := funext fun k => row_left x0 x1 x2 x3 x4 r k
  have f2 : (fun k : Fin 32 => val_main_v13 (F := Ideal) x0 x1 x2 x3 x4 (ix2 r (⟨64 + k.val, by omega⟩ : Fin 128)))
      = aggY (val_main_v9 (F := Ideal) x0) (val_main_v6 (F := Ideal) x1) x3 r := funext fun k => row_mid x0 x1 x2 x3 x4 r k
  have f3 : (fun k : Fin 32 => val_main_v13 (F := Ideal) x0 x1 x2 x3 x4 (ix2 r (⟨96 + k.val, by omega⟩ : Fin 128)))
      = fun k => x4 (ix2 (0 : Fin 1) k) := funext fun k => row_right x0 x1 x2 x3 x4 r k
  unfold val_main_v17
  rw [addf_apply, pre_sum, pre_bias, pre_split, f1, f2, f3]
  rfl

/-- The reference's normalised first feature is the host's row normalisation of that pre-activation. -/
theorem norm36_eq :
    val_main_v36 (F := Ideal) x0 x1 x2 x3 x4 x5 x6
      = hostNorm 0x42800000#32 0x3727C5AC#32 reducesTo_S50000x64_S50000_d1 h_S_ bcast_S_S50000x64
          bcast_S50000_S50000x1_0 bcast_S_S50000x1 bcast_S50000x1_S50000x64_0_1
          (val_main_v17 (F := Ideal) x0 x1 x2 x3 x4 x5 x6) := rfl

theorem resultX (r : Fin 50000) (j : Fin 64) :
    val_main_v42 (F := Ideal) x0 x1 x2 x3 x4 x5 x6 x7 x8 (ix2 r j)
      = outX (val_main_v9 (F := Ideal) x0) (val_main_v6 (F := Ideal) x1) x2 x3 x4 x5 x6 x7 x8 r j := by
  have e7 := param64 x7 r j
  have e8 := param64 x8 r j
  unfold val_main_v42 val_main_v39 val_main_v41 val_main_v40 val_main_v38 val_main_v37
  rw [addf_apply, mulf_apply, e7, e8, norm36_eq, hostNorm_apply _ _ _ _ _ _ _ _ (by decide)]
  unfold outX
  simp only [preX_eq]

/-- THE FIRST RESULT of the reference, as an array. -/
theorem first_eq :
    val_main_v42 (F := Ideal) x0 x1 x2 x3 x4 x5 x6 x7 x8
      = arrX (val_main_v9 (F := Ideal) x0) (val_main_v6 (F := Ideal) x1) x2 x3 x4 x5 x6 x7 x8 := by
  funext i
  obtain ⟨r, j, rfl⟩ : ∃ (r : Fin 50000) (j : Fin 64), i = ix2 r j := ⟨i 0, i 1, eq_ix2 i⟩
  exact resultX x0 x1 x2 x3 x4 x5 x6 x7 x8 r j

/-! ## The second result -/

theorem param32 (x : (⟨S32, .f32⟩ : BufTy).Contents (Elt Ideal)) (r : Fin 50000) (j : Fin 32) :
    broadcastInDim S50000x32 ![0, 1] bcast_S1x32_S50000x32_0_1 (broadcastInDim S1x32 ![1] bcast_S32_S1x32_1 x) (ix2 r j)
      = x (ix1 j) :=
  (broadcastInDim_1b_ab_apply _ bcast_S1x32_S50000x32_0_1 r j).trans (broadcastInDim_b_1b_apply x bcast_S32_S1x32_1 0 j)

/-- The product of the second aggregate with its weight matrix, at `(r, j)`. -/
theorem preY_sum (r : Fin 50000) (j : Fin 32) :
    val_main_v43 (F := Ideal) x0 x1 x2 x3 x9 (ix2 r j)
      = ∑ k : Fin 32, val_main_v11 (F := Ideal) x0 x1 x2 x3 (ix2 r k) * x9 (ix2 k j) := by
  unfold val_main_v43
  exact dotGeneral_plain_apply (φ₁ := .f32) (φ₂ := .f32) (M := 50000) (K := 32) (N := 32) none _ x9 r j

/-- The second bias spread over the rows, at `(r, j)`. -/
theorem preY_bias (r : Fin 50000) (j : Fin 32) : val_main_v45 (F := Ideal) x10 (ix2 r j) = x10 (ix1 j) := by
  unfold val_main_v45 val_main_v44
  exact param32 x10 r j

/-- The last 32 columns of the 96-wide aggregate, cut out, are the second feature's aggregate. -/
theorem slice_right (r : Fin 50000) (k : Fin 32) :
    val_main_v11 (F := Ideal) x0 x1 x2 x3 (ix2 r k)
      = aggY (val_main_v9 (F := Ideal) x0) (val_main_v6 (F := Ideal) x1) x3 r k := by
  unfold val_main_v11
  exact (slice2_axis1_apply 64 _ slices_S50000x96_S50000x32_0_64 r k (⟨64 + k.val, by omega⟩ : Fin 96) rfl).trans
    (aggregate_right x0 x1 x2 x3 r k)

theorem preY_eq (r : Fin 50000) (j : Fin 32) :
    val_main_v46 (F := Ideal) x0 x1 x2 x3 x9 x10 (ix2 r j)
      = preY (val_main_v9 (F := Ideal) x0) (val_main_v6 (F := Ideal) x1) x3 x9 x10 r j := by
  have f : (fun k : Fin 32 => val_main_v11 (F := Ideal) x0 x1 x2 x3 (ix2 r k))
      = aggY (val_main_v9 (F := Ideal) x0) (val_main_v6 (F := Ideal) x1) x3 r := funext fun k => slice_right x0 x1 x2 x3 r k
  unfold val_main_v46
  rw [addf_apply, preY_sum, preY_bias]
  unfold preY
  exact congrArg (· + x10 (ix1 j)) (Finset.sum_congr rfl fun k _ => congrArg (· * x9 (ix2 k j)) (congrFun f k))

theorem norm65_eq :
    val_main_v65 (F := Ideal) x0 x1 x2 x3 x9 x10
      = hostNorm 0x42000000#32 0x3727C5AC#32 reducesTo_S50000x32_S50000_d1 h_S_ bcast_S_S50000x32
          bcast_S50000_S50000x1_0 bcast_S_S50000x1 bcast_S50000x1_S50000x32_0_1
          (val_main_v46 (F := Ideal) x0 x1 x2 x3 x9 x10) := rfl

theorem resultY (r : Fin 50000) (j : Fin 32) :
    val_main_v71 (F := Ideal) x0 x1 x2 x3 x9 x10 x11 x12 (ix2 r j)
      = outY (val_main_v9 (F := Ideal) x0) (val_main_v6 (F := Ideal) x1) x3 x9 x10 x11 x12 r j := by
  have e11 := param32 x11 r j
  have e12 := param32 x12 r j
  unfold val_main_v71 val_main_v68 val_main_v70 val_main_v69 val_main_v67 val_main_v66
  rw [addf_apply, mulf_apply, e11, e12, norm65_eq, hostNorm_apply _ _ _ _ _ _ _ _ (by decide)]
  unfold outY
  simp only [preY_eq]

/-- THE SECOND RESULT of the reference, as an array. -/
theorem second_eq :
    val_main_v71 (F := Ideal) x0 x1 x2 x3 x9 x10 x11 x12
      = arrY (val_main_v9 (F := Ideal) x0) (val_main_v6 (F := Ideal) x1) x3 x9 x10 x11 x12 := by
  funext i
  obtain ⟨r, j, rfl⟩ : ∃ (r : Fin 50000) (j : Fin 32), i = ix2 r j := ⟨i 0, i 1, eq_ix2 i⟩
  exact resultY x0 x1 x2 x3 x9 x10 x11 x12 r j

end Cert.ReferenceIdeal.RefValue

end
-- ==== Proof.lean ====
/-
  One message-passing layer of a graph network: the kernel against its reference, on the extended reals.

  Both programs aggregate, for every node, the feature rows of the nodes with an edge into it (a gather by source
  row number, then an accumulating scatter by target row number), map the aggregates affinely, rectify, and
  layer-normalise each row. The kernel aggregates the two feature tables separately, multiplies by three row
  blocks of the first weight matrix and folds the `h_t` row into the bias on the host, then runs rows
  `2000 t … 2000 t + 1999` of the dense part at grid point `t`; the reference aggregates the concatenated tables once
  and multiplies one 128-wide row by the whole matrix. The two agree because an aggregate is taken column by column
  (`RefValue.aggregate_left`, `aggregate_right`) and a sum of 128 products may be cut at 64 and 96 and re-bracketed
  (`GnnLayer.lin_split`); the rest is the same arithmetic spelt twice (`LibRowNorm`). No step needs the inputs to be
  finite, so the precondition is not opened. The idealisation rewrote nothing, so `preserves` has nothing to state.
-/
import proofs.«144930_j70746701299878_2_alg».proof.Defs
import proofs.«144930_j70746701299878_2_alg».proof.Proof.Gen.Kernel
import proofs.«144930_j70746701299878_2_alg».proof.Proof.Gen.Kernel.Skeleton
import proofs.«144930_j70746701299878_2_alg».proof.Proof.Gen.Kernel.Launch
import proofs.«144930_j70746701299878_2_alg».proof.Proof.Gen.Kernel.Points
import proofs.«144930_j70746701299878_2_alg».proof.Proof.Gen.Kernel.Frame
import proofs.«144930_j70746701299878_2_alg».proof.Proof.Gen.KernelIdeal
import proofs.«144930_j70746701299878_2_alg».proof.Proof.Gen.KernelIdeal.Skeleton
import proofs.«144930_j70746701299878_2_alg».proof.Proof.Gen.KernelIdeal.Launch
import proofs.«144930_j70746701299878_2_alg».proof.Proof.Gen.KernelIdeal.Points
import proofs.«144930_j70746701299878_2_alg».proof.Proof.Gen.KernelIdeal.Frame
import proofs.«144930_j70746701299878_2_alg».proof.Proof.Gen.ReferenceIdeal
import proofs.«144930_j70746701299878_2_alg».proof.Proof.Gen.Pre_finite_inputs
import proofs.«144930_j70746701299878_2_alg».proof.Proof.Gen.KernelIdeal.Value
import proofs.«144930_j70746701299878_2_alg».proof.Proof.Gen.ReferenceIdeal.Run
import proofs.«144930_j70746701299878_2_alg».proof.Proof.Gen.ReferenceIdeal.Read
import proofs.«144930_j70746701299878_2_alg».proof.Proof.KernelValue
import proofs.«144930_j70746701299878_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the thirteen arguments both programs end with the layer's two results of those
    arguments: the kernel by its blocks (`KernelValue.run`), the reference by its run read back (`RefValue.first_eq`,
    `second_eq`). -/
theorem algebraic : Cert.algebraic_KernelIdeal_ReferenceIdeal := by
  intro m ρ m' ρ' _ hagree
  refine ⟨fun c => Cert.KernelIdeal.KernelValue.GX m c, fun c => Cert.KernelIdeal.KernelValue.GY m c,
    Cert.KernelIdeal.KernelValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.ReferenceIdeal.Read.val_main_v42_eq, Cert.ReferenceIdeal.RefValue.first_eq,
      h0, h1, h2, h3, h4, h5, h6, h7, h8]
    rfl
  · obtain ⟨h0, h1, h2, h3, h4, h5, h6, h7, h8, h9, h10, h11, h12⟩ := hagree c
    rw [Cert.ReferenceIdeal.Read.val_main_v71_eq, Cert.ReferenceIdeal.RefValue.second_eq,
      h0, h1, h3, h9, h10, h11, h12]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
